-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x500000 32) (main_arg2 : FVec F S500000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S2000x128 : Shape := ⟨2, ![2000, 128]⟩
abbrev S550000x128 : Shape := ⟨2, ![550000, 128]⟩
abbrev S1x128 : Shape := ⟨2, ![1, 128]⟩
abbrev S50000x64 : Shape := ⟨2, ![50000, 64]⟩
abbrev S2000x64 : Shape := ⟨2, ![2000, 64]⟩
abbrev S1x64 : Shape := ⟨2, ![1, 64]⟩
abbrev S50000x1 : Shape := ⟨2, ![50000, 1]⟩

abbrev nBuf : Space → Nat
  | .hbm => 143
  | .vmem => 20
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x500000, .i32⟩
  | 12 => ⟨S500000, .i32⟩
  | 13 => ⟨S1x500000, .i32⟩
  | 14 => ⟨S500000, .i32⟩
  | 15 => ⟨S50000, .i32⟩
  | 16 => ⟨S550000, .i32⟩
  | 17 => ⟨S550000, .i32⟩
  | 18 => ⟨S_, .f32⟩
  | 19 => ⟨S50000, .f32⟩
  | 20 => ⟨S550000, .f32⟩
  | 21 => ⟨S_, .f32⟩
  | 22 => ⟨S50000, .f32⟩
  | 23 => ⟨S550000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S550000, .i32⟩
  | 37 => ⟨S550000, .i1⟩
  | 38 => ⟨S_, .i32⟩
  | 39 => ⟨S550000, .i32⟩
  | 40 => ⟨S550000, .i32⟩
  | 41 => ⟨S550000, .i32⟩
  | 42 => ⟨S550000x1, .i32⟩
  | 43 => ⟨S550000, .f32⟩
  | 44 => ⟨S550000, .f32⟩
  | 45 => ⟨S_, .i32⟩
  | 46 => ⟨S550000, .i32⟩
  | 47 => ⟨S550000, .i1⟩
  | 48 => ⟨S_, .i32⟩
  | 49 => ⟨S550000, .i32⟩
  | 50 => ⟨S550000, .i32⟩
  | 51 => ⟨S550000, .i32⟩
  | 52 => ⟨S550000x1, .i32⟩
  | 53 => ⟨S550000, .f32⟩
  | 54 => ⟨S550000, .f32⟩
  | 55 => ⟨S50000x128, .f32⟩
  | 56 => ⟨S550000x1, .f32⟩
  | 57 => ⟨S_, .i32⟩
  | 58 => ⟨S550000, .i32⟩
  | 59 => ⟨S550000, .i1⟩
  | 60 => ⟨S_, .i32⟩
  | 61 => ⟨S550000, .i32⟩
  | 62 => ⟨S550000, .i32⟩
  | 63 => ⟨S550000, .i32⟩
  | 64 => ⟨S550000x1, .i32⟩
  | 65 => ⟨S550000x128, .f32⟩
  | 66 => ⟨S550000x128, .f32⟩
  | 67 => ⟨S550000x128, .f32⟩
  | 68 => ⟨S_, .f32⟩
  | 69 => ⟨S50000x128, .f32⟩
  | 70 => ⟨S550000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S550000x1, .f32⟩
  | 80 => ⟨S_, .i32⟩
  | 81 => ⟨S550000, .i32⟩
  | 82 => ⟨S550000, .i1⟩
  | 83 => ⟨S_, .i32⟩
  | 84 => ⟨S550000, .i32⟩
  | 85 => ⟨S550000, .i32⟩
  | 86 => ⟨S550000, .i32⟩
  | 87 => ⟨S550000x1, .i32⟩
  | 88 => ⟨S550000x128, .f32⟩
  | 89 => ⟨S550000x128, .f32⟩
  | 90 => ⟨S550000x128, .f32⟩
  | 91 => ⟨S_, .f32⟩
  | 92 => ⟨S50000x128, .f32⟩
  | 93 => ⟨S550000x1, .i32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S550000x1, .f32⟩
  | 103 => ⟨S_, .i32⟩
  | 104 => ⟨S550000, .i32⟩
  | 105 => ⟨S550000, .i1⟩
  | 106 => ⟨S_, .i32⟩
  | 107 => ⟨S550000, .i32⟩
  | 108 => ⟨S550000, .i32⟩
  | 109 => ⟨S550000, .i32⟩
  | 110 => ⟨S550000x1, .i32⟩
  | 111 => ⟨S550000x128, .f32⟩
  | 112 => ⟨S550000x128, .f32⟩
  | 113 => ⟨S550000x128, .f32⟩
  | 114 => ⟨S_, .f32⟩
  | 115 => ⟨S50000x128, .f32⟩
  | 116 => ⟨S550000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x64, .f32⟩
  | 125 => ⟨S1x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x64, .f32⟩
  | 7 => ⟨S50000x64, .f32⟩
  | 8 => ⟨S50000x64, .f32⟩
  | 9 => ⟨S_, .f32⟩
  | 10 => ⟨S50000, .f32⟩
  | 11 => ⟨S50000x1, .f32⟩
  | 12 => ⟨S50000x1, .f32⟩
  | 13 => ⟨S50000x64, .f32⟩
  | 14 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_13 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_15 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call3_cst : Ref sig .tc := ⟨.hbm, 121, rfl⟩
abbrev main_call3_v0 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call4_cst : Ref sig .tc := ⟨.hbm, 128, rfl⟩
abbrev main_call4_v0 : Ref sig .tc := ⟨.hbm, 129, rfl⟩
abbrev main_call4_cst_0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_cst_1 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_v91 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S50000 : S_.BroadcastsInDim S50000 (![] : Fin 0 → Fin S50000.rank)
  bcast_S550000_S550000x1_0 : S550000.BroadcastsInDim S550000x1 (![0] : Fin 1 → Fin S550000x1.rank)
  bcast_S_S550000 : S_.BroadcastsInDim S550000 (![] : Fin 0 → Fin S550000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S2000x128_S128x128_S2000x128_1_0_0_1_n_n_wf : DotDims.WF S2000x128 S128x128 S2000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x500000 : Shape := ⟨2, ![1, 500000]⟩
abbrev S50000 : Shape := ⟨1, ![50000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 223
  | .vmem => 0
  | .smem => 0
  | _ => 0

abbrev hbmTy0_0 (i : Nat) : BufTy := match i % 128 with
  | 0 => ⟨S50000x128, .f32⟩
  | 1 => ⟨S2x500000, .i32⟩
  | 2 => ⟨S500000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x500000, .i32⟩
  | 12 => ⟨S500000, .i32⟩
  | 13 => ⟨S1x500000, .i32⟩
  | 14 => ⟨S500000, .i32⟩
  | 15 => ⟨S50000, .i32⟩
  | 16 => ⟨S550000, .i32⟩
  | 17 => ⟨S550000, .i32⟩
  | 18 => ⟨S_, .f32⟩
  | 19 => ⟨S50000, .f32⟩
  | 20 => ⟨S550000, .f32⟩
  | 21 => ⟨S_, .f32⟩
  | 22 => ⟨S50000, .f32⟩
  | 23 => ⟨S550000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S550000, .i32⟩
  | 37 => ⟨S550000, .i1⟩
  | 38 => ⟨S_, .i32⟩
  | 39 => ⟨S550000, .i32⟩
  | 40 => ⟨S550000, .i32⟩
  | 41 => ⟨S550000, .i32⟩
  | 42 => ⟨S550000x1, .i32⟩
  | 43 => ⟨S550000, .f32⟩
  | 44 => ⟨S550000, .f32⟩
  | 45 => ⟨S_, .i32⟩
  | 46 => ⟨S550000, .i32⟩
  | 47 => ⟨S550000, .i1⟩
  | 48 => ⟨S_, .i32⟩
  | 49 => ⟨S550000, .i32⟩
  | 50 => ⟨S550000, .i32⟩
  | 51 => ⟨S550000, .i32⟩
  | 52 => ⟨S550000x1, .i32⟩
  | 53 => ⟨S550000, .f32⟩
  | 54 => ⟨S550000, .f32⟩
  | 55 => ⟨S50000x128, .f32⟩
  | 56 => ⟨S550000x1, .f32⟩
  | 57 => ⟨S_, .i32⟩
  | 58 => ⟨S550000, .i32⟩
  | 59 => ⟨S550000, .i1⟩
  | 60 => ⟨S_, .i32⟩
  | 61 => ⟨S550000, .i32⟩
  | 62 => ⟨S550000, .i32⟩
  | 63 => ⟨S550000, .i32⟩
  | 64 => ⟨S550000x1, .i32⟩
  | 65 => ⟨S550000x128, .f32⟩
  | 66 => ⟨S550000x128, .f32⟩
  | 67 => ⟨S550000x128, .f32⟩
  | 68 => ⟨S_, .f32⟩
  | 69 => ⟨S50000x128, .f32⟩
  | 70 => ⟨S550000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000, .i32⟩
  | 79 => ⟨S550000, .i32⟩
  | 80 => ⟨S550000, .i32⟩
  | 81 => ⟨S_, .f32⟩
  | 82 => ⟨S50000, .f32⟩
  | 83 => ⟨S550000, .f32⟩
  | 84 => ⟨S_, .f32⟩
  | 85 => ⟨S50000, .f32⟩
  | 86 => ⟨S550000x1, .i32⟩
  | 87 => ⟨S50000, .f32⟩
  | 88 => ⟨S_, .f32⟩
  | 89 => ⟨S50000, .f32⟩
  | 90 => ⟨S50000, .i1⟩
  | 91 => ⟨S_, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S550000, .i32⟩
  | 100 => ⟨S550000, .i1⟩
  | 101 => ⟨S_, .i32⟩
  | 102 => ⟨S550000, .i32⟩
  | 103 => ⟨S550000, .i32⟩
  | 104 => ⟨S550000, .i32⟩
  | 105 => ⟨S550000x1, .i32⟩
  | 106 => ⟨S550000, .f32⟩
  | 107 => ⟨S550000, .f32⟩
  | 108 => ⟨S_, .i32⟩
  | 109 => ⟨S550000, .i32⟩
  | 110 => ⟨S550000, .i1⟩
  | 111 => ⟨S_, .i32⟩
  | 112 => ⟨S550000, .i32⟩
  | 113 => ⟨S550000, .i32⟩
  | 114 => ⟨S550000, .i32⟩
  | 115 => ⟨S550000x1, .i32⟩
  | 116 => ⟨S550000, .f32⟩
  | 117 => ⟨S550000, .f32⟩
  | 118 => ⟨S50000x128, .f32⟩
  | 119 => ⟨S550000x1, .f32⟩
  | 120 => ⟨S_, .i32⟩
  | 121 => ⟨S550000, .i32⟩
  | 122 => ⟨S550000, .i1⟩
  | 123 => ⟨S_, .i32⟩
  | 124 => ⟨S550000, .i32⟩
  | 125 => ⟨S550000, .i32⟩
  | 126 => ⟨S550000, .i32⟩
  | 127 => ⟨S550000x1, .i32⟩
  | _ => ⟨S50000x128, .f32⟩

abbrev hbmTy0_1 (i : Nat) : BufTy := match i % 128 with
  | 0 => ⟨S550000x128, .f32⟩
  | 1 => ⟨S550000x128, .f32⟩
  | 2 => ⟨S550000x128, .f32⟩
  | 3 => ⟨S_, .f32⟩
  | 4 => ⟨S50000x128, .f32⟩
  | 5 => ⟨S550000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000, .i32⟩
  | 14 => ⟨S550000, .i32⟩
  | 15 => ⟨S550000, .i32⟩
  | 16 => ⟨S_, .f32⟩
  | 17 => ⟨S50000, .f32⟩
  | 18 => ⟨S550000, .f32⟩
  | 19 => ⟨S_, .f32⟩
  | 20 => ⟨S50000, .f32⟩
  | 21 => ⟨S550000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S550000, .i32⟩
  | 35 => ⟨S550000, .i1⟩
  | 36 => ⟨S_, .i32⟩
  | 37 => ⟨S550000, .i32⟩
  | 38 => ⟨S550000, .i32⟩
  | 39 => ⟨S550000, .i32⟩
  | 40 => ⟨S550000x1, .i32⟩
  | 41 => ⟨S550000, .f32⟩
  | 42 => ⟨S550000, .f32⟩
  | 43 => ⟨S_, .i32⟩
  | 44 => ⟨S550000, .i32⟩
  | 45 => ⟨S550000, .i1⟩
  | 46 => ⟨S_, .i32⟩
  | 47 => ⟨S550000, .i32⟩
  | 48 => ⟨S550000, .i32⟩
  | 49 => ⟨S550000, .i32⟩
  | 50 => ⟨S550000x1, .i32⟩
  | 51 => ⟨S550000, .f32⟩
  | 52 => ⟨S550000, .f32⟩
  | 53 => ⟨S50000x128, .f32⟩
  | 54 => ⟨S550000x1, .f32⟩
  | 55 => ⟨S_, .i32⟩
  | 56 => ⟨S550000, .i32⟩
  | 57 => ⟨S550000, .i1⟩
  | 58 => ⟨S_, .i32⟩
  | 59 => ⟨S550000, .i32⟩
  | 60 => ⟨S550000, .i32⟩
  | 61 => ⟨S550000, .i32⟩
  | 62 => ⟨S550000x1, .i32⟩
  | 63 => ⟨S550000x128, .f32⟩
  | 64 => ⟨S550000x128, .f32⟩
  | 65 => ⟨S550000x128, .f32⟩
  | 66 => ⟨S_, .f32⟩
  | 67 => ⟨S50000x128, .f32⟩
  | 68 => ⟨S550000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x64, .f32⟩
  | 87 => ⟨S50000x64, .f32⟩
  | 88 => ⟨S50000x64, .f32⟩
  | 89 => ⟨S_, .f32⟩
  | 90 => ⟨S50000, .f32⟩
  | 91 => ⟨S50000x1, .f32⟩
  | 92 => ⟨S50000x1, .f32⟩
  | 93 => ⟨S50000x64, .f32⟩
  | 94 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_21 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_call3_cst : Ref sig .tc := ⟨.hbm, 138, rfl⟩
abbrev main_call3_v0 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_24 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_cst_26 : Ref sig .tc := ⟨.hbm, 157, rfl⟩
abbrev main_call4_v0 : Ref sig .tc := ⟨.hbm, 158, rfl⟩
abbrev main_call4_v1 : Ref sig .tc := ⟨.hbm, 159, rfl⟩
abbrev main_v110 : Ref sig .tc := ⟨.hbm, 160, rfl⟩
abbrev main_c_27 : Ref sig .tc := ⟨.hbm, 161, rfl⟩
abbrev main_v111 : Ref sig .tc := ⟨.hbm, 162, rfl⟩
abbrev main_v112 : Ref sig .tc := ⟨.hbm, 163, rfl⟩
abbrev main_c_28 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_29 : Ref sig .tc := ⟨.hbm, 171, rfl⟩
abbrev main_v119 : Ref sig .tc := ⟨.hbm, 172, rfl⟩
abbrev main_v120 : Ref sig .tc := ⟨.hbm, 173, rfl⟩
abbrev main_c_30 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_c_31 : Ref sig .tc := ⟨.hbm, 183, rfl⟩
abbrev main_v129 : Ref sig .tc := ⟨.hbm, 184, rfl⟩
abbrev main_v130 : Ref sig .tc := ⟨.hbm, 185, rfl⟩
abbrev main_c_32 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_33 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_call5_cst : Ref sig .tc := ⟨.hbm, 201, rfl⟩
abbrev main_call5_v0 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_call6_cst : Ref sig .tc := ⟨.hbm, 208, rfl⟩
abbrev main_call6_v0 : Ref sig .tc := ⟨.hbm, 209, rfl⟩
abbrev main_call6_cst_0 : Ref sig .tc := ⟨.hbm, 210, rfl⟩
abbrev main_call6_v1 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_call6_v5 : Ref sig .tc := ⟨.hbm, 215, rfl⟩
abbrev main_call6_v6 : Ref sig .tc := ⟨.hbm, 216, rfl⟩
abbrev main_call6_cst_1 : Ref sig .tc := ⟨.hbm, 217, rfl⟩
abbrev main_call6_v7 : Ref sig .tc := ⟨.hbm, 218, rfl⟩
abbrev main_call6_v8 : Ref sig .tc := ⟨.hbm, 219, rfl⟩
abbrev main_call6_v9 : Ref sig .tc := ⟨.hbm, 220, rfl⟩
abbrev main_call6_v10 : Ref sig .tc := ⟨.hbm, 221, rfl⟩
abbrev main_v149 : Ref sig .tc := ⟨.hbm, 222, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S50000 : S_.BroadcastsInDim S50000 (![] : Fin 0 → Fin S50000.rank)
  bcast_S550000_S550000x1_0 : S550000.BroadcastsInDim S550000x1 (![0] : Fin 1 → Fin S550000x1.rank)
  bcast_S_S550000 : S_.BroadcastsInDim S550000 (![] : Fin 0 → Fin S550000.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  dot_S50000x128_S128x128_S50000x128_1_0_0_1_n_n_wf : DotDims.WF S50000x128 S128x128 S50000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x64_S50000x64_1_0_0_1_n_n_wf : DotDims.WF S50000x128 S128x64 S50000x64 [1] [0] [0] [1] [] []

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run, with its result named.

  At the compiled mesh, from any memory with zero counters, every weakly fair execution of @main on the TensorCores
  terminates, nothing faulting. The program is fifteen segments in order: stretches of host operations and four
  pipelined regions. The buffer contents at each segment boundary are a fold from the launch memory, and the thread
  state at the last boundary holds every unscoped buffer at the last boundary's contents. Reading that state against
  the final memory gives, for every device: the result buffer ends at the last boundary's contents, and each of the
  eleven argument buffers ends as launched (no host operation and no region writes an argument).
-/
import proofs.«144225_j352187318590_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the launch lemma's implicit arguments are found by unifying its conclusion with this one, which takes unfolding
-- plain definitions in a metavariable's type
set_option backward.isDefEq.respectTransparency.types false in
/-- Every weakly fair execution of @main on the TensorCores, from any memory with zero counters, terminates, and in
    every final state, on every device, the result buffer holds the contents of the last segment boundary (the fold of
    the fifteen segments from the launch memory, read at the result's reference) and each of the eleven argument
    buffers holds what it was launched with. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v91) = Gen.W15 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v91 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.NamedRun

end
-- ==== Proof.LibTypedRef.lean ====
/-
  A typed reference's transports cancel.

  A typed reference pairs a buffer with a proof that the buffer's declared type is a given one; a host operation built
  over typed references carries its operands from the buffers' types to the given types and its result back, along
  those equations.  Carrying a value to the buffer's type and back again is the identity, whatever proof of the equation
  the reference holds — so a chain of such operations, each reading what the one before wrote, composes to the plain
  composition of their functions.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, _, _⟩ := x
  rfl

/-- From the buffer's type and back. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.Spec.lean ====
/-
  A three-layer graph convolution network with a linear classifier, as one function of its eleven argument arrays.

  The edges are the given ones followed by one self loop per node: sources srcF (row 0 of the edge list, then
  0 … 49999), destinations dstF (row 1, then 0 … 49999), weights ewF (the given weights, then ones).  The weighted
  in-degree of a node is the sum of the weights of the edges that end in it; dinv is its power −1/2 where the degree is
  positive and 0 elsewhere; an edge's normalisation is dinv[src] · w · dinv[dst].  One layer takes the transformed
  features h = x · W (one row per node) and returns, row by row,

      relu ( Σ_{e : dst e = i}  nrm e · h[src e, ·]  +  b ) :

  the rows of h are gathered at the sources (a negative index wrapped once by the node count), scaled by the edge's
  normalisation, scatter-added into the destination rows of a zero array, the bias row is added to every row and the
  result clamped below at zero.  The tail adds the output bias to the last product and takes the row-wise log-softmax
  z − max z − log Σ exp (z − max z).  Everything is stated once, over the shapes of the reference program, so that both
  programs' host chains can be carried as these functions without being opened.
-/
import proofs.«144225_j352187318590_1_alg».proof.Proof.Gen.ReferenceIdeal

noncomputable section

namespace Cert.Gcn

open Cert.ReferenceIdeal Cert.ReferenceIdeal.Gen Idealize.ShloMosaic

variable {F : FTy → Type} [FloatOps F]

/-! ## The edge lists with the self loops appended -/

/-- The sources: row 0 of the edge list, then every node once. -/
def srcF (ei : (⟨S2x500000, .i32⟩ : BufTy).Contents (Elt F)) : (⟨S550000, .i32⟩ : BufTy).Contents (Elt F) :=
  concatenate S550000 0
    [⟨S500000, (shapeCast _ (extractStridedSlice S1x500000 ![0, 0] ei slices_S2x500000_S1x500000_0_0) shapeCasts_S1x500000_S500000)⟩,
     ⟨S50000, (iotaInDim S50000 32 0)⟩] concatenates_S500000_S50000_S550000_d0

/-- The destinations: row 1 of the edge list, then every node once. -/
def dstF (ei : (⟨S2x500000, .i32⟩ : BufTy).Contents (Elt F)) : (⟨S550000, .i32⟩ : BufTy).Contents (Elt F) :=
  concatenate S550000 0
    [⟨S500000, (shapeCast _ (extractStridedSlice S1x500000 ![1, 0] ei slices_S2x500000_S1x500000_1_0) shapeCasts_S1x500000_S500000)⟩,
     ⟨S50000, (iotaInDim S50000 32 0)⟩] concatenates_S500000_S50000_S550000_d0

/-- The weights: the given ones, then 1 for every self loop. -/
def ewF (ew : (⟨S500000, .f32⟩ : BufTy).Contents (Elt F)) : (⟨S550000, .f32⟩ : BufTy).Contents (Elt F) :=
  concatenate S550000 0
    [⟨S500000, ew⟩, ⟨S50000, (broadcastInDim S50000 ![] bcast_S_S50000 (constant (F := F) S_ .f32 0x3F800000#32))⟩]
    concatenates_S500000_S50000_S550000_d0

/-- An index into the node axis with a negative value wrapped once by the number of nodes, as a column. -/
def wrapIdx (ix : (⟨S550000, .i32⟩ : BufTy).Contents (Elt F)) : (⟨S550000x1, .i32⟩ : BufTy).Contents (Elt F) :=
  broadcastInDim S550000x1 ![0] bcast_S550000_S550000x1_0
    (select (cmpi .slt ix (broadcastInDim S550000 ![] bcast_S_S550000 (constantI S_ 32 0#32)))
      (addi ix (broadcastInDim S550000 ![] bcast_S_S550000 (constantI S_ 32 50000#32)))
      ix)

/-! ## The symmetric normalisation -/

/-- The weighted in-degree: the weights scatter-added into their destination nodes, from zero. -/
def deg (ei : (⟨S2x500000, .i32⟩ : BufTy).Contents (Elt F)) (ew : (⟨S500000, .f32⟩ : BufTy).Contents (Elt F)) : (⟨S50000, .f32⟩ : BufTy).Contents (Elt F) :=
  Host.scatterAdd scatter_S50000_S550000x1_S550000_n_0_0_1
    (broadcastInDim S50000 ![] bcast_S_S50000 (constant (F := F) S_ .f32 0x00000000#32))
    (broadcastInDim S550000x1 ![0] bcast_S550000_S550000x1_0 (dstF ei))
    (ewF ew)

/-- The degree to the power −1/2 where it is positive, zero elsewhere. -/
def dinv (ei : (⟨S2x500000, .i32⟩ : BufTy).Contents (Elt F)) (ew : (⟨S500000, .f32⟩ : BufTy).Contents (Elt F)) : (⟨S50000, .f32⟩ : BufTy).Contents (Elt F) :=
  select
    (cmpf .ogt (deg ei ew) (broadcastInDim S50000 ![] bcast_S_S50000 (constant (F := F) S_ .f32 0x00000000#32)))
    (Host.powf (deg ei ew) (broadcastInDim S50000 ![] bcast_S_S50000 (constant (F := F) S_ .f32 0xBF000000#32)))
    (broadcastInDim S50000 ![] bcast_S_S50000 (id (constant (F := F) S_ .f32 0x00000000#32)))

/-- A per-node vector read at an edge list. -/
def atNodes (v : (⟨S50000, .f32⟩ : BufTy).Contents (Elt F)) (ix : (⟨S550000, .i32⟩ : BufTy).Contents (Elt F)) : (⟨S550000, .f32⟩ : BufTy).Contents (Elt F) :=
  Host.gather gather_S50000_S550000x1_S550000_n_0_n_n_0_1_1 v (wrapIdx ix)

/-- An edge's normalisation: dinv at its source, times its weight, times dinv at its destination. -/
def norm (ei : (⟨S2x500000, .i32⟩ : BufTy).Contents (Elt F)) (ew : (⟨S500000, .f32⟩ : BufTy).Contents (Elt F)) : (⟨S550000, .f32⟩ : BufTy).Contents (Elt F) :=
  mulf (mulf (atNodes (dinv ei ew) (srcF ei)) (ewF ew)) (atNodes (dinv ei ew) (dstF ei))

/-! ## One layer -/

/-- The messages: row `src e` of `h`, scaled by the edge's normalisation. -/
def messages (h : (⟨S50000x128, .f32⟩ : BufTy).Contents (Elt F)) (nrm : (⟨S550000, .f32⟩ : BufTy).Contents (Elt F))
    (src : (⟨S550000, .i32⟩ : BufTy).Contents (Elt F)) : (⟨S550000x128, .f32⟩ : BufTy).Contents (Elt F) :=
  mulf
    (broadcastInDim S550000x128 ![0, 1] bcast_S550000x1_S550000x128_0_1
      (broadcastInDim S550000x1 ![0] bcast_S550000_S550000x1_0 nrm))
    (Host.gather gather_S50000x128_S550000x1_S550000x128_1_0_n_n_0_1_1128 h (wrapIdx src))

/-- One layer: the messages summed into their destination rows, plus the bias row, clamped below at zero. -/
def layer (h : (⟨S50000x128, .f32⟩ : BufTy).Contents (Elt F)) (nrm : (⟨S550000, .f32⟩ : BufTy).Contents (Elt F))
    (src dst : (⟨S550000, .i32⟩ : BufTy).Contents (Elt F)) (b : (⟨S128, .f32⟩ : BufTy).Contents (Elt F)) :
    (⟨S50000x128, .f32⟩ : BufTy).Contents (Elt F) :=
  maximumf
    (addf
      (Host.scatterAdd scatter_S50000x128_S550000x1_S550000x128_1_0_0_1
        (broadcastInDim S50000x128 ![] bcast_S_S50000x128 (constant (F := F) S_ .f32 0x00000000#32))
        (broadcastInDim S550000x1 ![0] bcast_S550000_S550000x1_0 dst)
        (messages h nrm src))
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-! ## The classifier's tail -/

/-- The logits: the last product plus the output bias row. -/
def logits (y : (⟨S50000x64, .f32⟩ : BufTy).Contents (Elt F)) (bl : (⟨S64, .f32⟩ : BufTy).Contents (Elt F)) : (⟨S50000x64, .f32⟩ : BufTy).Contents (Elt F) :=
  addf y (broadcastInDim S50000x64 ![0, 1] bcast_S1x64_S50000x64_0_1 (broadcastInDim S1x64 ![1] bcast_S64_S1x64_1 bl))

/-- A row minus its maximum (the maximum taken from −∞ along the row, and once more against −∞). -/
def shifted (z : (⟨S50000x64, .f32⟩ : BufTy).Contents (Elt F)) : (⟨S50000x64, .f32⟩ : BufTy).Contents (Elt F) :=
  subf z
    (broadcastInDim S50000x64 ![0, 1] bcast_S50000x1_S50000x64_0_1
      (broadcastInDim S50000x1 ![0] bcast_S50000_S50000x1_0
        (maximumf (broadcastInDim S50000 ![] bcast_S_S50000 (constant (F := F) S_ .f32 0xFF800000#32))
          (Host.reduce FloatOps.maximumf z (constant (F := F) S_ .f32 0xFF800000#32) reducesTo_S50000x64_S50000_d1 h_S_))))

/-- The row-wise log-softmax of the logits: s − log Σ exp s with s the shifted row. -/
def tail (y : (⟨S50000x64, .f32⟩ : BufTy).Contents (Elt F)) (bl : (⟨S64, .f32⟩ : BufTy).Contents (Elt F)) : (⟨S50000x64, .f32⟩ : BufTy).Contents (Elt F) :=
  subf (shifted (logits y bl))
    (broadcastInDim S50000x64 ![0, 1] bcast_S50000x1_S50000x64_0_1
      (Host.log
        (broadcastInDim S50000x1 ![0] bcast_S50000_S50000x1_0
          (Host.reduceAdd (Host.exp (shifted (logits y bl))) (constant (F := F) S_ .f32 0x00000000#32)
            reducesTo_S50000x64_S50000_d1 h_S_))))

/-! ## The network -/

/-- A hidden layer's dense product, features [50000, 128] by weights [128, 128]. -/
def prodH (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The classifier's dense product, features [50000, 128] by weights [128, 64]. -/
def prodO (x : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none x w

/-- The whole network: three layers over the same normalised edge lists, then the classifier. -/
def gcn (x : (⟨S50000x128, .f32⟩ : BufTy).Contents (Elt F)) (ei : (⟨S2x500000, .i32⟩ : BufTy).Contents (Elt F)) (ew : (⟨S500000, .f32⟩ : BufTy).Contents (Elt F))
    (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) (wl : (⟨S128x64, .f32⟩ : BufTy).Contents (Elt F)) (bl : (⟨S64, .f32⟩ : BufTy).Contents (Elt F)) :
    (⟨S50000x64, .f32⟩ : BufTy).Contents (Elt F) :=
  tail
    (prodO
      (layer
        (prodH
          (layer
            (prodH
              (layer (prodH x w1) (norm ei ew) (srcF ei) (dstF ei) b1)
              w2)
            (norm ei ew) (srcF ei) (dstF ei) b2)
          w3)
        (norm ei ew) (srcF ei) (dstF ei) b3)
      wl)
    bl

end Cert.Gcn

end
-- ==== Proof.Assembly.lean ====
/-
  The certificate's five conjuncts, from two facts about the network as one function.

  Let gcn be the whole network as a function of the eleven argument arrays. Suppose that, from any launch memory, the
  kernel program's result buffer at its last segment boundary is gcn of the kernel's argument buffers, and that the
  reference program's result term is gcn of the reference's argument buffers. Then from memories that agree on the
  arguments both programs run, and they end with equal results and unchanged arguments: the kernel's run ends with its
  result buffer at the last boundary's contents, the reference's run ends with its result at its result term, and the
  two are gcn of equal arguments.

  The three frame conjuncts are the runs themselves with the result forgotten, and the idealization rewrote no
  operation, so it has nothing to preserve.
-/
import proofs.«144225_j352187318590_1_alg».proof.Defs
import proofs.«144225_j352187318590_1_alg».proof.Proof.Gen.Kernel.Frame
import proofs.«144225_j352187318590_1_alg».proof.Proof.Gen.KernelIdeal.Frame
import proofs.«144225_j352187318590_1_alg».proof.Proof.Gen.ReferenceIdeal
import proofs.«144225_j352187318590_1_alg».proof.Proof.Gen.Pre_finite_inputs
import proofs.«144225_j352187318590_1_alg».proof.Proof.KernelRun
import proofs.«144225_j352187318590_1_alg».proof.Proof.RefRun
import proofs.«144225_j352187318590_1_alg».proof.Proof.Spec

noncomputable section

open Idealize.ShloMosaic Idealize.ShloMosaic.TcCoe Idealize.SL.Sem

namespace Cert.Proof.Assembly

/-- The bit-exact kernel program runs and its arguments end as launched. -/
theorem frame_Kernel : Cert.frame_Kernel := fun m ρ _ => Cert.Kernel.Gen.frame m ρ

/-- The kernel program at the exact instance runs and its arguments end as launched. -/
theorem frame_KernelIdeal : Cert.frame_KernelIdeal := fun m ρ _ => Cert.KernelIdeal.Gen.frame m ρ

/-- The reference program at the exact instance runs and its arguments end as launched: its run, the result
    forgotten. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel program. -/
theorem preserves : Cert.preserves_Kernel_KernelIdeal := trivial

/-- If the kernel program's result buffer at its last segment boundary is the network function of the kernel's
    argument buffers (`hK`), and the reference program's result term is the network function of the reference's
    argument buffers (`hR`), then from memories agreeing on the eleven arguments both programs run and end with equal
    results and unchanged arguments. The common result is the kernel's last boundary's contents at its result
    buffer. -/
theorem algebraic_of
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W15 (F := Ideal) m ρ c (Proc.devRef .tc Cert.KernelIdeal.main_v91)
        = Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
    (hR : ∀ (m' : (ℓ : Loc Cert.ReferenceIdeal.nD Cert.ReferenceIdeal.τ Cert.ReferenceIdeal.sig) → Buf (Elt Ideal) ℓ) (c : Dev Cert.ReferenceIdeal.nD),
      Cert.ReferenceIdeal.ValueP.res_main_v149 (F := Ideal) m' c
        = Cert.Gcn.gcn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))) :
    Cert.algebraic_KernelIdeal_ReferenceIdeal := by
  intro m ρ m' ρ' _ hagree
  refine ⟨fun c => Cert.KernelIdeal.Gen.W15 (F := Ideal) m ρ c (Proc.devRef .tc Cert.KernelIdeal.main_v91),
    Cert.KernelIdeal.NamedRun.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [hR m' c, h0, h1, h2, h3, h4, h5, h6, h7, h8, h9, h10]
  exact (hK m ρ c).symm

end Cert.Proof.Assembly

end
-- ==== Proof.KernelHost.lean ====
/-
  The kernel program's host stretches, each as a function of the contents it starts from.

  Between the four dense products the kernel program runs the same host operations as the reference: first the edge
  lists with the self loops appended and the symmetric normalisation (computed once), then after each product one
  layer's gather, scale, scatter-add, bias and relu, and at the end the output bias and the log-softmax.  Each stretch
  is read here as one function of the buffer contents V it starts from: the stretch's result buffer ends at that
  function of V at the buffers the stretch reads from outside itself.  The functions are the edge lists `srcF`, `dstF`,
  the normalisation `norm`, and `layer` / `tail`.
-/
import proofs.«144225_j352187318590_1_alg».proof.Proof.Gen.KernelIdeal.Launch
import proofs.«144225_j352187318590_1_alg».proof.Proof.Spec
import proofs.«144225_j352187318590_1_alg».proof.Proof.LibTypedRef
import Idealize.ShloMosaic.Lib.StableHlo.Run

set_option maxRecDepth 8192

noncomputable section

namespace Cert.Gcn.KernelHost

open Cert.KernelIdeal Cert.KernelIdeal.Gen Idealize.ShloMosaic Idealize.ShloMosaic.TcCoe Idealize.ShloMosaic.StableHlo

variable {F : FTy → Type} [FloatOps F]

/-- The sources with the self loops appended. -/
theorem pre_src (V : Valuation τ sig (Elt F)) :
    after hostOps0_2 (after hostOps0_1 (after hostOps0 V)) (Proc.devRef .tc main_v5)
      = Cert.Gcn.srcF (F := F) (V (Proc.devRef .tc main_arg1)) := by
  after_results_simp
  rfl

/-- The destinations with the self loops appended. -/
theorem pre_dst (V : Valuation τ sig (Elt F)) :
    after hostOps0_2 (after hostOps0_1 (after hostOps0 V)) (Proc.devRef .tc main_v6)
      = Cert.Gcn.dstF (F := F) (V (Proc.devRef .tc main_arg1)) := by
  after_results_simp
  rfl

/-- The normalisation dinv[src] · w · dinv[dst], dinv the inverse square root of the weighted in-degree where that is
    positive and zero elsewhere. -/
theorem pre_norm (V : Valuation τ sig (Elt F)) :
    after hostOps0_2 (after hostOps0_1 (after hostOps0 V)) (Proc.devRef .tc main_v32)
      = Cert.Gcn.norm (F := F) (V (Proc.devRef .tc main_arg1)) (V (Proc.devRef .tc main_arg2)) := by
  after_results_simp
  rfl

/-- Layer 1's host part, from the first product. -/
theorem host_layer1 (V : Valuation τ sig (Elt F)) :
    after hostOps1_1 (after hostOps1 V) (Proc.devRef .tc main_v50)
      = Cert.Gcn.layer (F := F) (V (Proc.devRef .tc main_v33)) (V (Proc.devRef .tc main_v32)) (V (Proc.devRef .tc main_v5)) (V (Proc.devRef .tc main_v6)) (V (Proc.devRef .tc main_arg4)) := by
  after_results_simp
  rfl

/-- Layer 2's host part, from the second product. -/
theorem host_layer2 (V : Valuation τ sig (Elt F)) :
    after hostOps2_1 (after hostOps2 V) (Proc.devRef .tc main_v68)
      = Cert.Gcn.layer (F := F) (V (Proc.devRef .tc main_v51)) (V (Proc.devRef .tc main_v32)) (V (Proc.devRef .tc main_v5)) (V (Proc.devRef .tc main_v6)) (V (Proc.devRef .tc main_arg6)) := by
  after_results_simp
  rfl

/-- Layer 3's host part, from the third product. -/
theorem host_layer3 (V : Valuation τ sig (Elt F)) :
    after hostOps3_1 (after hostOps3 V) (Proc.devRef .tc main_v86)
      = Cert.Gcn.layer (F := F) (V (Proc.devRef .tc main_v69)) (V (Proc.devRef .tc main_v32)) (V (Proc.devRef .tc main_v5)) (V (Proc.devRef .tc main_v6)) (V (Proc.devRef .tc main_arg8)) := by
  after_results_simp
  rfl

/-- The tail, from the last product (the outlined log-softmax is a chain of operations over typed references: their
    paired transports cancel first). -/
theorem host_tail (V : Valuation τ sig (Elt F)) :
    after hostOps4_1 (after hostOps4 V) (Proc.devRef .tc main_v91)
      = Cert.Gcn.tail (F := F) (V (Proc.devRef .tc main_v87)) (V (Proc.devRef .tc main_arg10)) := by
  after_results_simp
  simp only [TRef.ofBuf_toBuf]
  rfl

end Cert.Gcn.KernelHost

end
-- ==== Proof.Keep.lean ====
/-
  Which buffers @main's segments carry unchanged.

  The buffer contents at the segment boundaries are a fold from the launch memory: a stretch of host operations
  changes exactly the buffers its operations write, and a pipelined region changes exactly its windows' arrays. So a
  buffer that no operation of a stretch writes is the same after the stretch as before it, and a buffer that is not
  one of a region's arrays is the same at the region's exit as at its entry. Walking a buffer back through the
  boundaries with these two facts:

  * each argument buffer, at the boundary where the program first reads it, still holds what it was launched with;
  * three buffers that the stretches before the first region write, and that the stretch after each of the first three
    regions reads, hold at the exit of each of those regions what they held at the first region's entry. They are the
    two index vectors of length 550000 (row 0, respectively row 1, of the second argument followed by the indices
    0 … 49999) and a product of two vectors of length 550000.
-/
import proofs.«144225_j352187318590_1_alg».proof.Proof.Gen.KernelIdeal.Frame

set_option maxRecDepth 16384

noncomputable section

namespace Cert.KernelIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg) (c : Dev nD)

/-- A stretch of host operations keeps a buffer none of its operations writes: the buffer written by each operation
    of the stretch is listed, and each is a reference other than the one in question. -/
local macro "keep_stretch " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments, where they are first read

No host operation writes an argument, and an argument is not among the arrays of a region it passes before its first
read, so at that boundary it holds the launch memory's contents. The second and third arguments are read by the very
first stretch only: at the launch. -/

theorem W0_main_arg1 : W0 m ρ c (Proc.devRef .tc main_arg1) = m ((c : Thread nD τ).loc main_arg1) := rfl
theorem W0_main_arg2 : W0 m ρ c (Proc.devRef .tc main_arg2) = m ((c : Thread nD τ).loc main_arg2) := rfl

theorem W3_main_arg0 : W3 m ρ c (Proc.devRef .tc main_arg0) = m ((c : Thread nD τ).loc main_arg0) :=
  calc W3 m ρ c (Proc.devRef .tc main_arg0)
    _ = W2 m ρ c (Proc.devRef .tc main_arg0) := by keep_stretch hostOps0_2
    _ = W1 m ρ c (Proc.devRef .tc main_arg0) := by keep_stretch hostOps0_1
    _ = W0 m ρ c (Proc.devRef .tc main_arg0) := by keep_stretch hostOps0
    _ = m ((c : Thread nD τ).loc main_arg0) := rfl

theorem W3_main_arg3 : W3 m ρ c (Proc.devRef .tc main_arg3) = m ((c : Thread nD τ).loc main_arg3) :=
  calc W3 m ρ c (Proc.devRef .tc main_arg3)
    _ = W2 m ρ c (Proc.devRef .tc main_arg3) := by keep_stretch hostOps0_2
    _ = W1 m ρ c (Proc.devRef .tc main_arg3) := by keep_stretch hostOps0_1
    _ = W0 m ρ c (Proc.devRef .tc main_arg3) := by keep_stretch hostOps0
    _ = m ((c : Thread nD τ).loc main_arg3) := rfl

theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by keep_stretch hostOps0_2
    _ = W1 m ρ c (Proc.devRef .tc main_arg4) := by keep_stretch hostOps0_1
    _ = W0 m ρ c (Proc.devRef .tc main_arg4) := by keep_stretch hostOps0
    _ = m ((c : Thread nD τ).loc main_arg4) := rfl

theorem W6_main_arg5 : W6 m ρ c (Proc.devRef .tc main_arg5) = m ((c : Thread nD τ).loc main_arg5) :=
  calc W6 m ρ c (Proc.devRef .tc main_arg5)
    _ = W5 m ρ c (Proc.devRef .tc main_arg5) := by keep_stretch hostOps1_1
    _ = W4 m ρ c (Proc.devRef .tc main_arg5) := by keep_stretch hostOps1
    _ = W3 m ρ c (Proc.devRef .tc main_arg5) := W4_of_ne m ρ c main_arg5 (by decide)
    _ = W2 m ρ c (Proc.devRef .tc main_arg5) := by keep_stretch hostOps0_2
    _ = W1 m ρ c (Proc.devRef .tc main_arg5) := by keep_stretch hostOps0_1
    _ = W0 m ρ c (Proc.devRef .tc main_arg5) := by keep_stretch hostOps0
    _ = m ((c : Thread nD τ).loc main_arg5) := rfl

theorem W7_main_arg6 : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := by keep_stretch hostOps1_1
    _ = W4 m ρ c (Proc.devRef .tc main_arg6) := by keep_stretch hostOps1
    _ = W3 m ρ c (Proc.devRef .tc main_arg6) := W4_of_ne m ρ c main_arg6 (by decide)
    _ = W2 m ρ c (Proc.devRef .tc main_arg6) := by keep_stretch hostOps0_2
    _ = W1 m ρ c (Proc.devRef .tc main_arg6) := by keep_stretch hostOps0_1
    _ = W0 m ρ c (Proc.devRef .tc main_arg6) := by keep_stretch hostOps0
    _ = m ((c : Thread nD τ).loc main_arg6) := rfl

theorem W9_main_arg7 : W9 m ρ c (Proc.devRef .tc main_arg7) = m ((c : Thread nD τ).loc main_arg7) :=
  calc W9 m ρ c (Proc.devRef .tc main_arg7)
    _ = W8 m ρ c (Proc.devRef .tc main_arg7) := by keep_stretch hostOps2_1
    _ = W7 m ρ c (Proc.devRef .tc main_arg7) := by keep_stretch hostOps2
    _ = W6 m ρ c (Proc.devRef .tc main_arg7) := W7_of_ne m ρ c main_arg7 (by decide)
    _ = W5 m ρ c (Proc.devRef .tc main_arg7) := by keep_stretch hostOps1_1
    _ = W4 m ρ c (Proc.devRef .tc main_arg7) := by keep_stretch hostOps1
    _ = W3 m ρ c (Proc.devRef .tc main_arg7) := W4_of_ne m ρ c main_arg7 (by decide)
    _ = W2 m ρ c (Proc.devRef .tc main_arg7) := by keep_stretch hostOps0_2
    _ = W1 m ρ c (Proc.devRef .tc main_arg7) := by keep_stretch hostOps0_1
    _ = W0 m ρ c (Proc.devRef .tc main_arg7) := by keep_stretch hostOps0
    _ = m ((c : Thread nD τ).loc main_arg7) := rfl

theorem W10_main_arg8 : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by keep_stretch hostOps2_1
    _ = W7 m ρ c (Proc.devRef .tc main_arg8) := by keep_stretch hostOps2
    _ = W6 m ρ c (Proc.devRef .tc main_arg8) := W7_of_ne m ρ c main_arg8 (by decide)
    _ = W5 m ρ c (Proc.devRef .tc main_arg8) := by keep_stretch hostOps1_1
    _ = W4 m ρ c (Proc.devRef .tc main_arg8) := by keep_stretch hostOps1
    _ = W3 m ρ c (Proc.devRef .tc main_arg8) := W4_of_ne m ρ c main_arg8 (by decide)
    _ = W2 m ρ c (Proc.devRef .tc main_arg8) := by keep_stretch hostOps0_2
    _ = W1 m ρ c (Proc.devRef .tc main_arg8) := by keep_stretch hostOps0_1
    _ = W0 m ρ c (Proc.devRef .tc main_arg8) := by keep_stretch hostOps0
    _ = m ((c : Thread nD τ).loc main_arg8) := rfl

theorem W12_main_arg9 : W12 m ρ c (Proc.devRef .tc main_arg9) = m ((c : Thread nD τ).loc main_arg9) :=
  calc W12 m ρ c (Proc.devRef .tc main_arg9)
    _ = W11 m ρ c (Proc.devRef .tc main_arg9) := by keep_stretch hostOps3_1
    _ = W10 m ρ c (Proc.devRef .tc main_arg9) := by keep_stretch hostOps3
    _ = W9 m ρ c (Proc.devRef .tc main_arg9) := W10_of_ne m ρ c main_arg9 (by decide)
    _ = W8 m ρ c (Proc.devRef .tc main_arg9) := by keep_stretch hostOps2_1
    _ = W7 m ρ c (Proc.devRef .tc main_arg9) := by keep_stretch hostOps2
    _ = W6 m ρ c (Proc.devRef .tc main_arg9) := W7_of_ne m ρ c main_arg9 (by decide)
    _ = W5 m ρ c (Proc.devRef .tc main_arg9) := by keep_stretch hostOps1_1
    _ = W4 m ρ c (Proc.devRef .tc main_arg9) := by keep_stretch hostOps1
    _ = W3 m ρ c (Proc.devRef .tc main_arg9) := W4_of_ne m ρ c main_arg9 (by decide)
    _ = W2 m ρ c (Proc.devRef .tc main_arg9) := by keep_stretch hostOps0_2
    _ = W1 m ρ c (Proc.devRef .tc main_arg9) := by keep_stretch hostOps0_1
    _ = W0 m ρ c (Proc.devRef .tc main_arg9) := by keep_stretch hostOps0
    _ = m ((c : Thread nD τ).loc main_arg9) := rfl

theorem W13_main_arg10 : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := by keep_stretch hostOps3_1
    _ = W10 m ρ c (Proc.devRef .tc main_arg10) := by keep_stretch hostOps3
    _ = W9 m ρ c (Proc.devRef .tc main_arg10) := W10_of_ne m ρ c main_arg10 (by decide)
    _ = W8 m ρ c (Proc.devRef .tc main_arg10) := by keep_stretch hostOps2_1
    _ = W7 m ρ c (Proc.devRef .tc main_arg10) := by keep_stretch hostOps2
    _ = W6 m ρ c (Proc.devRef .tc main_arg10) := W7_of_ne m ρ c main_arg10 (by decide)
    _ = W5 m ρ c (Proc.devRef .tc main_arg10) := by keep_stretch hostOps1_1
    _ = W4 m ρ c (Proc.devRef .tc main_arg10) := by keep_stretch hostOps1
    _ = W3 m ρ c (Proc.devRef .tc main_arg10) := W4_of_ne m ρ c main_arg10 (by decide)
    _ = W2 m ρ c (Proc.devRef .tc main_arg10) := by keep_stretch hostOps0_2
    _ = W1 m ρ c (Proc.devRef .tc main_arg10) := by keep_stretch hostOps0_1
    _ = W0 m ρ c (Proc.devRef .tc main_arg10) := by keep_stretch hostOps0
    _ = m ((c : Thread nD τ).loc main_arg10) := rfl

/-! ## Three buffers read after each of the first three regions

The two index vectors are written by the first stretch and the product by the third, all before the first region; no
later stretch writes them and no region has them among its arrays. Each is compared with its contents at the first
region's entry. -/

theorem W4_main_v5 : W4 m ρ c (Proc.devRef .tc main_v5) = W3 m ρ c (Proc.devRef .tc main_v5) :=
  W4_of_ne m ρ c main_v5 (by decide)
theorem W7_main_v5 : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := by keep_stretch hostOps1_1
    _ = W4 m ρ c (Proc.devRef .tc main_v5) := by keep_stretch hostOps1
    _ = W3 m ρ c (Proc.devRef .tc main_v5) := W4_main_v5 m ρ c
theorem W10_main_v5 : W10 m ρ c (Proc.devRef .tc main_v5) = W3 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := by keep_stretch hostOps2_1
    _ = W7 m ρ c (Proc.devRef .tc main_v5) := by keep_stretch hostOps2
    _ = W3 m ρ c (Proc.devRef .tc main_v5) := W7_main_v5 m ρ c

theorem W4_main_v6 : W4 m ρ c (Proc.devRef .tc main_v6) = W3 m ρ c (Proc.devRef .tc main_v6) :=
  W4_of_ne m ρ c main_v6 (by decide)
theorem W7_main_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := by keep_stretch hostOps1_1
    _ = W4 m ρ c (Proc.devRef .tc main_v6) := by keep_stretch hostOps1
    _ = W3 m ρ c (Proc.devRef .tc main_v6) := W4_main_v6 m ρ c
theorem W10_main_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by keep_stretch hostOps2_1
    _ = W7 m ρ c (Proc.devRef .tc main_v6) := by keep_stretch hostOps2
    _ = W3 m ρ c (Proc.devRef .tc main_v6) := W7_main_v6 m ρ c

theorem W4_main_v32 : W4 m ρ c (Proc.devRef .tc main_v32) = W3 m ρ c (Proc.devRef .tc main_v32) :=
  W4_of_ne m ρ c main_v32 (by decide)
theorem W7_main_v32 : W7 m ρ c (Proc.devRef .tc main_v32) = W3 m ρ c (Proc.devRef .tc main_v32) :=
  calc W7 m ρ c (Proc.devRef .tc main_v32)
    _ = W6 m ρ c (Proc.devRef .tc main_v32) := W7_of_ne m ρ c main_v32 (by decide)
    _ = W5 m ρ c (Proc.devRef .tc main_v32) := by keep_stretch hostOps1_1
    _ = W4 m ρ c (Proc.devRef .tc main_v32) := by keep_stretch hostOps1
    _ = W3 m ρ c (Proc.devRef .tc main_v32) := W4_main_v32 m ρ c
theorem W10_main_v32 : W10 m ρ c (Proc.devRef .tc main_v32) = W3 m ρ c (Proc.devRef .tc main_v32) :=
  calc W10 m ρ c (Proc.devRef .tc main_v32)
    _ = W9 m ρ c (Proc.devRef .tc main_v32) := W10_of_ne m ρ c main_v32 (by decide)
    _ = W8 m ρ c (Proc.devRef .tc main_v32) := by keep_stretch hostOps2_1
    _ = W7 m ρ c (Proc.devRef .tc main_v32) := by keep_stretch hostOps2
    _ = W3 m ρ c (Proc.devRef .tc main_v32) := W7_main_v32 m ρ c

end Cert.KernelIdeal.Keep

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.DotArray.lean ====
/-
  An array given entry by entry as a contraction is the host's dot_general.

  If every entry (p, q) of an [A, B] array is Σ_k lhs[p, k] · rhs[k, q] over the extended reals, the array is the
  host's dot_general of lhs and rhs under dimension numbers that contract the second axis of the first operand with
  the first axis of the second: at the exact instance that product has the same entries, whatever its precision and
  schedule say.
-/
import proofs.«144225_j352187318590_1_alg».proof.Proof.LibPlainDot

noncomputable section

open scoped BigOperators

namespace Cert.Gcn

open Idealize.ShloMosaic Idealize.ShloMosaic.ValueIdx

theorem eq_dotGeneral_of_entries {A K B : Nat} (d : DotDims ⟨2, ![A, K]⟩ ⟨2, ![K, B]⟩ ⟨2, ![A, B]⟩)
    (prec : Option ContractPrecision) (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ .f32) (rhs : FVec Ideal ⟨2, ![K, B]⟩ .f32)
    (y : FVec Ideal ⟨2, ![A, B]⟩ .f32)
    (h : ∀ (p : Fin A) (q : Fin B), y (ix2 p q) = ∑ k : Fin K, lhs (ix2 p k) * rhs (ix2 k q)) :
    y = FloatOps.dotGeneral d prec sched lhs rhs := by
  funext j
  obtain ⟨p, q, rfl⟩ : ∃ (p : Fin A) (q : Fin B), j = ix2 p q := ⟨j 0, j 1, eq_ix2 j⟩
  rw [h, PlainDot.dotGeneral_apply d prec sched hr hs hl0 hl1 hr0 hr1]

end Cert.Gcn

end
-- ==== Proof.Region0.lean ====
import proofs.«144225_j352187318590_1_alg».proof.Proof.Gen.KernelIdeal.Frame
import proofs.«144225_j352187318590_1_alg».proof.Proof.LibPlainDot
import Idealize.ShloMosaic.Lib.Pipeline.Value

/-!
# Region 0: the output array is the matrix product of its two input arrays

The region runs 25 grid points. Point t reads rows 2000·t … 2000·t + 1999 of the [50000, 128] array x, reads the whole
[128, 128] array w, and writes rows 2000·t … 2000·t + 1999 of the [50000, 128] output: at the exact instance the block
written is the plain product of the block of x by w, with no rounding. So entry (p, q) of the output depends on row p of x
and column q of w only, and the 25 row blocks together make up the whole array

  out[p, q] = Σ_k x[p, k] · w[k, q],   k = 0 … 127.

Everything is stated at arbitrary buffer contents V at the region's entry.
-/

set_option maxRecDepth 16384

noncomputable section

open scoped BigOperators

namespace Cert.KernelIdeal.RegionValue

open Cert.KernelIdeal Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets (0, 0), in the two spellings that occur. -/
theorem zero_offsets0 : (![0, 0] : Fin 2 → Nat) = fun _ => 0 := funext fun a => by fin_cases a <;> rfl

/-- The product of a [50000, 128] array by a [128, 128] array: entry (p, q) is Σ_k x[p, k] · w[k, q]. Written through the
    two coordinates of the index, so that it is a function of the index. -/
def prod0 (x : S50000x128.Idx → EReal) (w : S128x128.Idx → EReal) : S50000x128.Idx → EReal := fun j =>
  ∑ k : Fin 128, x (ix2 (j 0) k) * w (ix2 k (j 1))

theorem prod0_apply (x : S50000x128.Idx → EReal) (w : S128x128.Idx → EReal) (p : Fin 50000) (q : Fin 128) :
    prod0 x w (ix2 p q) = ∑ k : Fin 128, x (ix2 p k) * w (ix2 k q) := rfl

/-- The product of the region's two input arrays as the region finds them. -/
def G0 (c : Dev nD) : S50000x128.Idx → EReal := prod0 (V c main_arg0) (V c main_arg3)

/-- The body's result at entry (r, q) of a block: Σ_k x0[r, k] · x1[k, q]. Narrowing to bf16 is the identity at the exact
    instance and the product accumulates onto zero. -/
theorem pay0_apply (x0 : Vec Ideal S2000x128 .f32) (x1 : Vec Ideal S128x128 .f32) (r : Fin 2000) (q : Fin 128) :
    Gen.k0_pay1 (F := Ideal) x0 x1 (ix2 r q) = ∑ k : Fin 128, x0 (ix2 r k) * x1 (ix2 k q) := by
  unfold Gen.k0_pay1
  exact PlainDot.matmul_zero_apply (A := 2000) (K := 128) (B := 128) dot_S2000x128_S128x128_S2000x128_1_0_0_1_n_n none rfl rfl
    (fun _ _ => rfl) (fun _ _ => rfl) (fun _ _ => rfl) (fun _ _ => rfl) _ _ r q

/-- The block indices at point t: the x block and the output block are block row t, the w block is the whole array. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block's entry as an entry of the product array: when x0 is rows 2000·n … 2000·n + 1999 of x and x1 is all of w,
    the body's result at (r, q) is the product's entry at (2000·n + r, q). -/
theorem block_entry0 (x : S50000x128.Idx → EReal) (w : S128x128.Idx → EReal)
    (x0 : Vec Ideal S2000x128 .f32) (x1 : Vec Ideal S128x128 .f32) (n : Nat)
    (h0 : ∀ (r : Fin 2000) (k : Fin 128) (i : S50000x128.Idx), (i 0).val = n * 2000 + r.val → (i 1).val = k.val → x0 (ix2 r k) = x i)
    (h1 : ∀ (k : Fin 128) (q : Fin 128), x1 (ix2 k q) = w (ix2 k q))
    (y : S2000x128.Idx) (i : S50000x128.Idx) (hi0 : (i 0).val = n * 2000 + (y 0).val) (hi1 : (i 1).val = (y 1).val) :
    Gen.k0_pay1 (F := Ideal) x0 x1 y = prod0 x w i := by
  refine (congrArg _ (eq_ix2 y)).trans ((pay0_apply x0 x1 (y 0) (y 1)).trans ?_)
  unfold prod0
  refine Finset.sum_congr rfl fun k _ => ?_
  rw [h0 (y 0) k (ix2 (i 0) k) hi0 rfl, h1 k (y 1)]
  have e : (ix2 k (y 1) : S128x128.Idx) = ix2 k (i 1) := by
    funext a
    match a with
    | ⟨0, _⟩ => rfl
    | ⟨1, _⟩ => exact Fin.ext hi1.symm
  rw [e]
  rfl

/-- What point t writes back is block t of the product array: a coordinate of a block's entry in its array is
    block index × block size + the coordinate inside the block. -/
theorem flushed0_eq (c : Dev nD) (t : Fin cfg0.N) :
    (Gen.dat0 (F := Ideal) V c).flushed 2 t = ((cfg0.win 2).blk t).view.read (Elt Ideal) (G0 V c) := by
  show (cfg0.win 2).cut (grid0.coords t) ((Gen.dat0 (F := Ideal) V c).after 2 t) = _
  rw [Gen.after0_2]
  unfold Gen.out0_2
  rw [View.canon_unit_zero zero_offsets0]
  simp only [View.ld_unit_zero (S := S2000x128) zero_offsets0, View.ld_unit_zero (S := S128x128) zero_offsets0]
  obtain ⟨e00, e01, e10, e11, e20, e21⟩ := index_facts0 t
  funext j
  show Gen.k0_pay1 (F := Ideal) (Gen.iblk0 V c 0 t) (Gen.iblk0 V c 1 t) j = prod0 (V c main_arg0) (V c main_arg3) (((cfg0.win 2).blk t).view.emb j)
  refine block_entry0 (V c main_arg0) (V c main_arg3) _ _ t.val ?_ ?_ j _ ?_ ?_
  · intro r k i h0 h1
    show V c main_arg0 (((cfg0.win 0).blk t).view.emb (ix2 r k)) = V c main_arg0 i
    congr 1
    funext a
    apply Fin.ext
    match a with
    | ⟨0, _⟩ => show win0_0.index t (0 : Fin 2) * 2000 + 1 * r.val = (i 0).val; omega
    | ⟨1, _⟩ => show win0_0.index t (1 : Fin 2) * 128 + 1 * k.val = (i 1).val; omega
  · intro k q
    show V c main_arg3 (((cfg0.win 1).blk t).view.emb (ix2 k q)) = V c main_arg3 (ix2 k q)
    congr 1
    funext a
    apply Fin.ext
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 2000 + 1 * (j 0).val = t.val * 2000 + (j 0).val; omega
  · show win0_2.index t (1 : Fin 2) * 128 + 1 * (j 1).val = (j 1).val; omega

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v33).slice (win0_2.rect t)).set ↔ _
  rw [View.set_slice_whole, Rect.mem_set_unit]
  exact Iff.rfl

/-- Row p of the output lies in the block of point p / 2000, which is written back. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := Gen.N_0
  refine ⟨⟨(i 0).val / 2000, by rw [hN]; omega⟩, Gen.flush0_2 _, ?_⟩
  rw [mem_blk0]
  obtain ⟨e00, e01, e10, e11, e20, e21⟩ := index_facts0 ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e21]; omega

/-- The region's output array after its last point is the product of its two input arrays. -/
theorem region0_array (c : Dev nD) : (Gen.dat0 (F := Ideal) V c).arrAt 2 cfg0.N = G0 V c :=
  (Gen.dat0 (F := Ideal) V c).arrAt_eq_of_cover 2 (G0 V c) (fun t _ => flushed0_eq V c t) cover0

/-- Entry (p, q) of the region's output array, the two input arrays named: Σ_k x[p, k] · w[k, q]. -/
theorem region0_entry (c : Dev nD) (x : S50000x128.Idx → EReal) (w : S128x128.Idx → EReal)
    (hx : V c main_arg0 = x) (hw : V c main_arg3 = w) (p : Fin 50000) (q : Fin 128) :
    (Gen.dat0 (F := Ideal) V c).arrAt 2 cfg0.N (ix2 p q) = ∑ k : Fin 128, x (ix2 p k) * w (ix2 k q) := by
  rw [region0_array]
  subst hx hw
  rfl

end Cert.KernelIdeal.RegionValue

end
-- ==== Proof.Region1.lean ====
import proofs.«144225_j352187318590_1_alg».proof.Proof.Gen.KernelIdeal.Frame
import proofs.«144225_j352187318590_1_alg».proof.Proof.LibPlainDot
import Idealize.ShloMosaic.Lib.Pipeline.Value

/-!
# Region 1: the output array is the matrix product of its two input arrays

The region runs 25 grid points. Point t reads rows 2000·t … 2000·t + 1999 of the [50000, 128] array x, reads the whole
[128, 128] array w, and writes rows 2000·t … 2000·t + 1999 of the [50000, 128] output: at the exact instance the block
written is the plain product of the block of x by w, with no rounding. So entry (p, q) of the output depends on row p of x
and column q of w only, and the 25 row blocks together make up the whole array

  out[p, q] = Σ_k x[p, k] · w[k, q],   k = 0 … 127.

Everything is stated at arbitrary buffer contents V at the region's entry.
-/

set_option maxRecDepth 16384

noncomputable section

open scoped BigOperators

namespace Cert.KernelIdeal.RegionValue

open Cert.KernelIdeal Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets (0, 0), in the two spellings that occur. -/
theorem zero_offsets1 : (![0, 0] : Fin 2 → Nat) = fun _ => 0 := funext fun a => by fin_cases a <;> rfl

/-- The product of a [50000, 128] array by a [128, 128] array: entry (p, q) is Σ_k x[p, k] · w[k, q]. Written through the
    two coordinates of the index, so that it is a function of the index. -/
def prod1 (x : S50000x128.Idx → EReal) (w : S128x128.Idx → EReal) : S50000x128.Idx → EReal := fun j =>
  ∑ k : Fin 128, x (ix2 (j 0) k) * w (ix2 k (j 1))

theorem prod1_apply (x : S50000x128.Idx → EReal) (w : S128x128.Idx → EReal) (p : Fin 50000) (q : Fin 128) :
    prod1 x w (ix2 p q) = ∑ k : Fin 128, x (ix2 p k) * w (ix2 k q) := rfl

/-- The product of the region's two input arrays as the region finds them. -/
def G1 (c : Dev nD) : S50000x128.Idx → EReal := prod1 (V c main_v50) (V c main_arg5)

/-- The body's result at entry (r, q) of a block: Σ_k x0[r, k] · x1[k, q]. Narrowing to bf16 is the identity at the exact
    instance, as is the cast of the x block to its own shape, and the product accumulates onto zero. -/
theorem pay1_apply (x0 : Vec Ideal S2000x128 .f32) (x1 : Vec Ideal S128x128 .f32) (r : Fin 2000) (q : Fin 128) :
    Gen.k1_pay1 (F := Ideal) x0 x1 (ix2 r q) = ∑ k : Fin 128, x0 (ix2 r k) * x1 (ix2 k q) := by
  unfold Gen.k1_pay1
  simp only [shapeCast_self]
  exact PlainDot.matmul_zero_apply (A := 2000) (K := 128) (B := 128) dot_S2000x128_S128x128_S2000x128_1_0_0_1_n_n none rfl rfl
    (fun _ _ => rfl) (fun _ _ => rfl) (fun _ _ => rfl) (fun _ _ => rfl) _ _ r q

/-- The block indices at point t: the x block and the output block are block row t, the w block is the whole array. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block's entry as an entry of the product array: when x0 is rows 2000·n … 2000·n + 1999 of x and x1 is all of w,
    the body's result at (r, q) is the product's entry at (2000·n + r, q). -/
theorem block_entry1 (x : S50000x128.Idx → EReal) (w : S128x128.Idx → EReal)
    (x0 : Vec Ideal S2000x128 .f32) (x1 : Vec Ideal S128x128 .f32) (n : Nat)
    (h0 : ∀ (r : Fin 2000) (k : Fin 128) (i : S50000x128.Idx), (i 0).val = n * 2000 + r.val → (i 1).val = k.val → x0 (ix2 r k) = x i)
    (h1 : ∀ (k : Fin 128) (q : Fin 128), x1 (ix2 k q) = w (ix2 k q))
    (y : S2000x128.Idx) (i : S50000x128.Idx) (hi0 : (i 0).val = n * 2000 + (y 0).val) (hi1 : (i 1).val = (y 1).val) :
    Gen.k1_pay1 (F := Ideal) x0 x1 y = prod1 x w i := by
  refine (congrArg _ (eq_ix2 y)).trans ((pay1_apply x0 x1 (y 0) (y 1)).trans ?_)
  unfold prod1
  refine Finset.sum_congr rfl fun k _ => ?_
  rw [h0 (y 0) k (ix2 (i 0) k) hi0 rfl, h1 k (y 1)]
  have e : (ix2 k (y 1) : S128x128.Idx) = ix2 k (i 1) := by
    funext a
    match a with
    | ⟨0, _⟩ => rfl
    | ⟨1, _⟩ => exact Fin.ext hi1.symm
  rw [e]
  rfl

/-- What point t writes back is block t of the product array: a coordinate of a block's entry in its array is
    block index × block size + the coordinate inside the block. -/
theorem flushed1_eq (c : Dev nD) (t : Fin cfg1.N) :
    (Gen.dat1 (F := Ideal) V c).flushed 2 t = ((cfg1.win 2).blk t).view.read (Elt Ideal) (G1 V c) := by
  show (cfg1.win 2).cut (grid1.coords t) ((Gen.dat1 (F := Ideal) V c).after 2 t) = _
  rw [Gen.after1_2]
  unfold Gen.out1_2
  rw [View.canon_unit_zero zero_offsets1]
  simp only [View.ld_unit_zero (S := S2000x128) zero_offsets1, View.ld_unit_zero (S := S128x128) zero_offsets1]
  obtain ⟨e00, e01, e10, e11, e20, e21⟩ := index_facts1 t
  funext j
  show Gen.k1_pay1 (F := Ideal) (Gen.iblk1 V c 0 t) (Gen.iblk1 V c 1 t) j = prod1 (V c main_v50) (V c main_arg5) (((cfg1.win 2).blk t).view.emb j)
  refine block_entry1 (V c main_v50) (V c main_arg5) _ _ t.val ?_ ?_ j _ ?_ ?_
  · intro r k i h0 h1
    show V c main_v50 (((cfg1.win 0).blk t).view.emb (ix2 r k)) = V c main_v50 i
    congr 1
    funext a
    apply Fin.ext
    match a with
    | ⟨0, _⟩ => show win1_0.index t (0 : Fin 2) * 2000 + 1 * r.val = (i 0).val; omega
    | ⟨1, _⟩ => show win1_0.index t (1 : Fin 2) * 128 + 1 * k.val = (i 1).val; omega
  · intro k q
    show V c main_arg5 (((cfg1.win 1).blk t).view.emb (ix2 k q)) = V c main_arg5 (ix2 k q)
    congr 1
    funext a
    apply Fin.ext
    match a with
    | ⟨0, _⟩ => show win1_1.index t (0 : Fin 2) * 128 + 1 * k.val = k.val; omega
    | ⟨1, _⟩ => show win1_1.index t (1 : Fin 2) * 128 + 1 * q.val = q.val; omega
  · show win1_2.index t (0 : Fin 2) * 2000 + 1 * (j 0).val = t.val * 2000 + (j 0).val; omega
  · show win1_2.index t (1 : Fin 2) * 128 + 1 * (j 1).val = (j 1).val; omega

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v51).slice (win1_2.rect t)).set ↔ _
  rw [View.set_slice_whole, Rect.mem_set_unit]
  exact Iff.rfl

/-- Row p of the output lies in the block of point p / 2000, which is written back. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := Gen.N_1
  refine ⟨⟨(i 0).val / 2000, by rw [hN]; omega⟩, Gen.flush1_2 _, ?_⟩
  rw [mem_blk1]
  obtain ⟨e00, e01, e10, e11, e20, e21⟩ := index_facts1 ⟨(i 0).val / 2000, by rw [hN]; omega⟩
  intro a
  match a with
  | ⟨0, _⟩ => show win1_2.index _ (0 : Fin 2) * 2000 ≤ (i 0).val ∧ (i 0).val < win1_2.index _ (0 : Fin 2) * 2000 + 2000; rw [e20]; show (i 0).val / 2000 * 2000 ≤ (i 0).val ∧ (i 0).val < (i 0).val / 2000 * 2000 + 2000; omega
  | ⟨1, _⟩ => show win1_2.index _ (1 : Fin 2) * 128 ≤ (i 1).val ∧ (i 1).val < win1_2.index _ (1 : Fin 2) * 128 + 128; rw [e21]; omega

/-- The region's output array after its last point is the product of its two input arrays. -/
theorem region1_array (c : Dev nD) : (Gen.dat1 (F := Ideal) V c).arrAt 2 cfg1.N = G1 V c :=
  (Gen.dat1 (F := Ideal) V c).arrAt_eq_of_cover 2 (G1 V c) (fun t _ => flushed1_eq V c t) cover1

/-- Entry (p, q) of the region's output array, the two input arrays named: Σ_k x[p, k] · w[k, q]. -/
theorem region1_entry (c : Dev nD) (x : S50000x128.Idx → EReal) (w : S128x128.Idx → EReal)
    (hx : V c main_v50 = x) (hw : V c main_arg5 = w) (p : Fin 50000) (q : Fin 128) :
    (Gen.dat1 (F := Ideal) V c).arrAt 2 cfg1.N (ix2 p q) = ∑ k : Fin 128, x (ix2 p k) * w (ix2 k q) := by
  rw [region1_array]
  subst hx hw
  rfl

end Cert.KernelIdeal.RegionValue

end
-- ==== Proof.Region2.lean ====
import proofs.«144225_j352187318590_1_alg».proof.Proof.Gen.KernelIdeal.Frame
import proofs.«144225_j352187318590_1_alg».proof.Proof.LibPlainDot
import Idealize.ShloMosaic.Lib.Pipeline.Value

/-!
# Region 2: the output array is the matrix product of its two input arrays

The region runs 25 grid points. Point t reads rows 2000·t … 2000·t + 1999 of the [50000, 128] array x, reads the whole
[128, 128] array w, and writes rows 2000·t … 2000·t + 1999 of the [50000, 128] output: at the exact instance the block
written is the plain product of the block of x by w, with no rounding. So entry (p, q) of the output depends on row p of x
and column q of w only, and the 25 row blocks together make up the whole array

  out[p, q] = Σ_k x[p, k] · w[k, q],   k = 0 … 127.

Everything is stated at arbitrary buffer contents V at the region's entry.
-/

set_option maxRecDepth 16384

noncomputable section

open scoped BigOperators

namespace Cert.KernelIdeal.RegionValue

open Cert.KernelIdeal Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets (0, 0), in the two spellings that occur. -/
theorem zero_offsets2 : (![0, 0] : Fin 2 → Nat) = fun _ => 0 := funext fun a => by fin_cases a <;> rfl

/-- The product of a [50000, 128] array by a [128, 128] array: entry (p, q) is Σ_k x[p, k] · w[k, q]. Written through the
    two coordinates of the index, so that it is a function of the index. -/
def prod2 (x : S50000x128.Idx → EReal) (w : S128x128.Idx → EReal) : S50000x128.Idx → EReal := fun j =>
  ∑ k : Fin 128, x (ix2 (j 0) k) * w (ix2 k (j 1))

theorem prod2_apply (x : S50000x128.Idx → EReal) (w : S128x128.Idx → EReal) (p : Fin 50000) (q : Fin 128) :
    prod2 x w (ix2 p q) = ∑ k : Fin 128, x (ix2 p k) * w (ix2 k q) := rfl

/-- The product of the region's two input arrays as the region finds them. -/
def G2 (c : Dev nD) : S50000x128.Idx → EReal := prod2 (V c main_v68) (V c main_arg7)

/-- The body's result at entry (r, q) of a block: Σ_k x0[r, k] · x1[k, q]. Narrowing to bf16 is the identity at the exact
    instance, as is the cast of the x block to its own shape, and the product accumulates onto zero. -/
theorem pay2_apply (x0 : Vec Ideal S2000x128 .f32) (x1 : Vec Ideal S128x128 .f32) (r : Fin 2000) (q : Fin 128) :
    Gen.k2_pay1 (F := Ideal) x0 x1 (ix2 r q) = ∑ k : Fin 128, x0 (ix2 r k) * x1 (ix2 k q) := by
  unfold Gen.k2_pay1
  simp only [shapeCast_self]
  exact PlainDot.matmul_zero_apply (A := 2000) (K := 128) (B := 128) dot_S2000x128_S128x128_S2000x128_1_0_0_1_n_n none rfl rfl
    (fun _ _ => rfl) (fun _ _ => rfl) (fun _ _ => rfl) (fun _ _ => rfl) _ _ r q

/-- The block indices at point t: the x block and the output block are block row t, the w block is the whole array. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block's entry as an entry of the product array: when x0 is rows 2000·n … 2000·n + 1999 of x and x1 is all of w,
    the body's result at (r, q) is the product's entry at (2000·n + r, q). -/
theorem block_entry2 (x : S50000x128.Idx → EReal) (w : S128x128.Idx → EReal)
    (x0 : Vec Ideal S2000x128 .f32) (x1 : Vec Ideal S128x128 .f32) (n : Nat)
    (h0 : ∀ (r : Fin 2000) (k : Fin 128) (i : S50000x128.Idx), (i 0).val = n * 2000 + r.val → (i 1).val = k.val → x0 (ix2 r k) = x i)
    (h1 : ∀ (k : Fin 128) (q : Fin 128), x1 (ix2 k q) = w (ix2 k q))
    (y : S2000x128.Idx) (i : S50000x128.Idx) (hi0 : (i 0).val = n * 2000 + (y 0).val) (hi1 : (i 1).val = (y 1).val) :
    Gen.k2_pay1 (F := Ideal) x0 x1 y = prod2 x w i := by
  refine (congrArg _ (eq_ix2 y)).trans ((pay2_apply x0 x1 (y 0) (y 1)).trans ?_)
  unfold prod2
  refine Finset.sum_congr rfl fun k _ => ?_
  rw [h0 (y 0) k (ix2 (i 0) k) hi0 rfl, h1 k (y 1)]
  have e : (ix2 k (y 1) : S128x128.Idx) = ix2 k (i 1) := by
    funext a
    match a with
    | ⟨0, _⟩ => rfl
    | ⟨1, _⟩ => exact Fin.ext hi1.symm
  rw [e]
  rfl

/-- What point t writes back is block t of the product array: a coordinate of a block's entry in its array is
    block index × block size + the coordinate inside the block. -/
theorem flushed2_eq (c : Dev nD) (t : Fin cfg2.N) :
    (Gen.dat2 (F := Ideal) V c).flushed 2 t = ((cfg2.win 2).blk t).view.read (Elt Ideal) (G2 V c) := by
  show (cfg2.win 2).cut (grid2.coords t) ((Gen.dat2 (F := Ideal) V c).after 2 t) = _
  rw [Gen.after2_2]
  unfold Gen.out2_2
  rw [View.canon_unit_zero zero_offsets2]
  simp only [View.ld_unit_zero (S := S2000x128) zero_offsets2, View.ld_unit_zero (S := S128x128) zero_offsets2]
  obtain ⟨e00, e01, e10, e11, e20, e21⟩ := index_facts2 t
  funext j
  show Gen.k2_pay1 (F := Ideal) (Gen.iblk2 V c 0 t) (Gen.iblk2 V c 1 t) j = prod2 (V c main_v68) (V c main_arg7) (((cfg2.win 2).blk t).view.emb j)
  refine block_entry2 (V c main_v68) (V c main_arg7) _ _ t.val ?_ ?_ j _ ?_ ?_
  · intro r k i h0 h1
    show V c main_v68 (((cfg2.win 0).blk t).view.emb (ix2 r k)) = V c main_v68 i
    congr 1
    funext a
    apply Fin.ext
    match a with
    | ⟨0, _⟩ => show win2_0.index t (0 : Fin 2) * 2000 + 1 * r.val = (i 0).val; omega
    | ⟨1, _⟩ => show win2_0.index t (1 : Fin 2) * 128 + 1 * k.val = (i 1).val; omega
  · intro k q
    show V c main_arg7 (((cfg2.win 1).blk t).view.emb (ix2 k q)) = V c main_arg7 (ix2 k q)
    congr 1
    funext a
    apply Fin.ext
    match a with
    | ⟨0, _⟩ => show win2_1.index t (0 : Fin 2) * 128 + 1 * k.val = k.val; omega
    | ⟨1, _⟩ => show win2_1.index t (1 : Fin 2) * 128 + 1 * q.val = q.val; omega
  · show win2_2.index t (0 : Fin 2) * 2000 + 1 * (j 0).val = t.val * 2000 + (j 0).val; omega
  · show win2_2.index t (1 : Fin 2) * 128 + 1 * (j 1).val = (j 1).val; omega

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v69).slice (win2_2.rect t)).set ↔ _
  rw [View.set_slice_whole, Rect.mem_set_unit]
  exact Iff.rfl

/-- Row p of the output lies in the block of point p / 2000, which is written back. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := Gen.N_2
  refine ⟨⟨(i 0).val / 2000, by rw [hN]; omega⟩, Gen.flush2_2 _, ?_⟩
  rw [mem_blk2]
  obtain ⟨e00, e01, e10, e11, e20, e21⟩ := index_facts2 ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 128 ≤ (i 1).val ∧ (i 1).val < win2_2.index _ (1 : Fin 2) * 128 + 128; rw [e21]; omega

/-- The region's output array after its last point is the product of its two input arrays. -/
theorem region2_array (c : Dev nD) : (Gen.dat2 (F := Ideal) V c).arrAt 2 cfg2.N = G2 V c :=
  (Gen.dat2 (F := Ideal) V c).arrAt_eq_of_cover 2 (G2 V c) (fun t _ => flushed2_eq V c t) cover2

/-- Entry (p, q) of the region's output array, the two input arrays named: Σ_k x[p, k] · w[k, q]. -/
theorem region2_entry (c : Dev nD) (x : S50000x128.Idx → EReal) (w : S128x128.Idx → EReal)
    (hx : V c main_v68 = x) (hw : V c main_arg7 = w) (p : Fin 50000) (q : Fin 128) :
    (Gen.dat2 (F := Ideal) V c).arrAt 2 cfg2.N (ix2 p q) = ∑ k : Fin 128, x (ix2 p k) * w (ix2 k q) := by
  rw [region2_array]
  subst hx hw
  rfl

end Cert.KernelIdeal.RegionValue

end
-- ==== Proof.Region3.lean ====
import proofs.«144225_j352187318590_1_alg».proof.Proof.Gen.KernelIdeal.Frame
import proofs.«144225_j352187318590_1_alg».proof.Proof.LibPlainDot
import Idealize.ShloMosaic.Lib.Pipeline.Value

/-!
# Region 3: the output array is the matrix product of its two input arrays

The region runs 25 grid points. Point t reads rows 2000·t … 2000·t + 1999 of the [50000, 128] array x, reads the whole
[128, 64] array w, and writes rows 2000·t … 2000·t + 1999 of the [50000, 64] output: at the exact instance the block
written is the plain product of the block of x by w, with no rounding. So entry (p, q) of the output depends on row p of x
and column q of w only, and the 25 row blocks together make up the whole array

  out[p, q] = Σ_k x[p, k] · w[k, q],   k = 0 … 127.

Everything is stated at arbitrary buffer contents V at the region's entry.
-/

set_option maxRecDepth 16384

noncomputable section

open scoped BigOperators

namespace Cert.KernelIdeal.RegionValue

open Cert.KernelIdeal Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The offsets (0, 0), in the two spellings that occur. -/
theorem zero_offsets3 : (![0, 0] : Fin 2 → Nat) = fun _ => 0 := funext fun a => by fin_cases a <;> rfl

/-- The product of a [50000, 128] array by a [128, 64] array: entry (p, q) is Σ_k x[p, k] · w[k, q]. Written through the
    two coordinates of the index, so that it is a function of the index. -/
def prod3 (x : S50000x128.Idx → EReal) (w : S128x64.Idx → EReal) : S50000x64.Idx → EReal := fun j =>
  ∑ k : Fin 128, x (ix2 (j 0) k) * w (ix2 k (j 1))

theorem prod3_apply (x : S50000x128.Idx → EReal) (w : S128x64.Idx → EReal) (p : Fin 50000) (q : Fin 64) :
    prod3 x w (ix2 p q) = ∑ k : Fin 128, x (ix2 p k) * w (ix2 k q) := rfl

/-- The product of the region's two input arrays as the region finds them. -/
def G3 (c : Dev nD) : S50000x64.Idx → EReal := prod3 (V c main_v86) (V c main_arg9)

/-- The body's result at entry (r, q) of a block: Σ_k x0[r, k] · x1[k, q]. Narrowing to bf16 is the identity at the exact
    instance, as is the cast of the x block to its own shape, and the product accumulates onto zero. -/
theorem pay3_apply (x0 : Vec Ideal S2000x128 .f32) (x1 : Vec Ideal S128x64 .f32) (r : Fin 2000) (q : Fin 64) :
    Gen.k3_pay1 (F := Ideal) x0 x1 (ix2 r q) = ∑ k : Fin 128, x0 (ix2 r k) * x1 (ix2 k q) := by
  unfold Gen.k3_pay1
  simp only [shapeCast_self]
  exact PlainDot.matmul_zero_apply (A := 2000) (K := 128) (B := 64) dot_S2000x128_S128x64_S2000x64_1_0_0_1_n_n none rfl rfl
    (fun _ _ => rfl) (fun _ _ => rfl) (fun _ _ => rfl) (fun _ _ => rfl) _ _ r q

/-- The block indices at point t: the x block and the output block are block row t, the w block is the whole array. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A block's entry as an entry of the product array: when x0 is rows 2000·n … 2000·n + 1999 of x and x1 is all of w,
    the body's result at (r, q) is the product's entry at (2000·n + r, q). -/
theorem block_entry3 (x : S50000x128.Idx → EReal) (w : S128x64.Idx → EReal)
    (x0 : Vec Ideal S2000x128 .f32) (x1 : Vec Ideal S128x64 .f32) (n : Nat)
    (h0 : ∀ (r : Fin 2000) (k : Fin 128) (i : S50000x128.Idx), (i 0).val = n * 2000 + r.val → (i 1).val = k.val → x0 (ix2 r k) = x i)
    (h1 : ∀ (k : Fin 128) (q : Fin 64), x1 (ix2 k q) = w (ix2 k q))
    (y : S2000x64.Idx) (i : S50000x64.Idx) (hi0 : (i 0).val = n * 2000 + (y 0).val) (hi1 : (i 1).val = (y 1).val) :
    Gen.k3_pay1 (F := Ideal) x0 x1 y = prod3 x w i := by
  refine (congrArg _ (eq_ix2 y)).trans ((pay3_apply x0 x1 (y 0) (y 1)).trans ?_)
  unfold prod3
  refine Finset.sum_congr rfl fun k _ => ?_
  rw [h0 (y 0) k (ix2 (i 0) k) hi0 rfl, h1 k (y 1)]
  have e : (ix2 k (y 1) : S128x64.Idx) = ix2 k (i 1) := by
    funext a
    match a with
    | ⟨0, _⟩ => rfl
    | ⟨1, _⟩ => exact Fin.ext hi1.symm
  rw [e]
  rfl

/-- What point t writes back is block t of the product array: a coordinate of a block's entry in its array is
    block index × block size + the coordinate inside the block. -/
theorem flushed3_eq (c : Dev nD) (t : Fin cfg3.N) :
    (Gen.dat3 (F := Ideal) V c).flushed 2 t = ((cfg3.win 2).blk t).view.read (Elt Ideal) (G3 V c) := by
  show (cfg3.win 2).cut (grid3.coords t) ((Gen.dat3 (F := Ideal) V c).after 2 t) = _
  rw [Gen.after3_2]
  unfold Gen.out3_2
  rw [View.canon_unit_zero zero_offsets3]
  simp only [View.ld_unit_zero (S := S2000x128) zero_offsets3, View.ld_unit_zero (S := S128x64) zero_offsets3]
  obtain ⟨e00, e01, e10, e11, e20, e21⟩ := index_facts3 t
  funext j
  show Gen.k3_pay1 (F := Ideal) (Gen.iblk3 V c 0 t) (Gen.iblk3 V c 1 t) j = prod3 (V c main_v86) (V c main_arg9) (((cfg3.win 2).blk t).view.emb j)
  refine block_entry3 (V c main_v86) (V c main_arg9) _ _ t.val ?_ ?_ j _ ?_ ?_
  · intro r k i h0 h1
    show V c main_v86 (((cfg3.win 0).blk t).view.emb (ix2 r k)) = V c main_v86 i
    congr 1
    funext a
    apply Fin.ext
    match a with
    | ⟨0, _⟩ => show win3_0.index t (0 : Fin 2) * 2000 + 1 * r.val = (i 0).val; omega
    | ⟨1, _⟩ => show win3_0.index t (1 : Fin 2) * 128 + 1 * k.val = (i 1).val; omega
  · intro k q
    show V c main_arg9 (((cfg3.win 1).blk t).view.emb (ix2 k q)) = V c main_arg9 (ix2 k q)
    congr 1
    funext a
    apply Fin.ext
    match a with
    | ⟨0, _⟩ => show win3_1.index t (0 : Fin 2) * 128 + 1 * k.val = k.val; omega
    | ⟨1, _⟩ => show win3_1.index t (1 : Fin 2) * 64 + 1 * q.val = q.val; omega
  · show win3_2.index t (0 : Fin 2) * 2000 + 1 * (j 0).val = t.val * 2000 + (j 0).val; omega
  · show win3_2.index t (1 : Fin 2) * 64 + 1 * (j 1).val = (j 1).val; omega

/-- An index of the output array is in point t's block iff each coordinate is in the block's range on its axis. -/
theorem mem_blk3 (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v87).slice (win3_2.rect t)).set ↔ _
  rw [View.set_slice_whole, Rect.mem_set_unit]
  exact Iff.rfl

/-- Row p of the output lies in the block of point p / 2000, which is written back. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 25 := Gen.N_3
  refine ⟨⟨(i 0).val / 2000, by rw [hN]; omega⟩, Gen.flush3_2 _, ?_⟩
  rw [mem_blk3]
  obtain ⟨e00, e01, e10, e11, e20, e21⟩ := index_facts3 ⟨(i 0).val / 2000, by rw [hN]; omega⟩
  intro a
  match a with
  | ⟨0, _⟩ => show win3_2.index _ (0 : Fin 2) * 2000 ≤ (i 0).val ∧ (i 0).val < win3_2.index _ (0 : Fin 2) * 2000 + 2000; rw [e20]; show (i 0).val / 2000 * 2000 ≤ (i 0).val ∧ (i 0).val < (i 0).val / 2000 * 2000 + 2000; omega
  | ⟨1, _⟩ => show win3_2.index _ (1 : Fin 2) * 64 ≤ (i 1).val ∧ (i 1).val < win3_2.index _ (1 : Fin 2) * 64 + 64; rw [e21]; omega

/-- The region's output array after its last point is the product of its two input arrays. -/
theorem region3_array (c : Dev nD) : (Gen.dat3 (F := Ideal) V c).arrAt 2 cfg3.N = G3 V c :=
  (Gen.dat3 (F := Ideal) V c).arrAt_eq_of_cover 2 (G3 V c) (fun t _ => flushed3_eq V c t) cover3

/-- Entry (p, q) of the region's output array, the two input arrays named: Σ_k x[p, k] · w[k, q]. -/
theorem region3_entry (c : Dev nD) (x : S50000x128.Idx → EReal) (w : S128x64.Idx → EReal)
    (hx : V c main_v86 = x) (hw : V c main_arg9 = w) (p : Fin 50000) (q : Fin 64) :
    (Gen.dat3 (F := Ideal) V c).arrAt 2 cfg3.N (ix2 p q) = ∑ k : Fin 128, x (ix2 p k) * w (ix2 k q) := by
  rw [region3_array]
  subst hx hw
  rfl

end Cert.KernelIdeal.RegionValue

end
-- ==== Proof.Walk.lean ====
/-
  The kernel program's result, followed through @main.

  @main alternates host stretches with the four tiled products.  At the first product's entry the three buffers that
  every layer reads hold the edge lists and the normalisation of the arguments; each product's output array holds the
  dense product of its two input arrays (its blocks of 2000 rows tile the array, and a block's entry is the plain sum
  over the 128 contracted positions); each layer's stretch maps the product before it to the layer's output, the three
  carried buffers and the arguments unchanged in between; the last stretch is the classifier's tail.  Composed, the
  result buffer ends at the network function `gcn` of the eleven arguments.
-/
import proofs.«144225_j352187318590_1_alg».proof.Proof.Gen.KernelIdeal.Frame
import proofs.«144225_j352187318590_1_alg».proof.Proof.Spec
import proofs.«144225_j352187318590_1_alg».proof.Proof.KernelHost
import proofs.«144225_j352187318590_1_alg».proof.Proof.Keep
import proofs.«144225_j352187318590_1_alg».proof.Proof.DotArray
import proofs.«144225_j352187318590_1_alg».proof.Proof.Region0
import proofs.«144225_j352187318590_1_alg».proof.Proof.Region1
import proofs.«144225_j352187318590_1_alg».proof.Proof.Region2
import proofs.«144225_j352187318590_1_alg».proof.Proof.Region3

set_option maxRecDepth 16384

noncomputable section

namespace Cert.Gcn.Walk

open Cert.KernelIdeal Cert.KernelIdeal.Gen Idealize.ShloMosaic Idealize.ShloMosaic.TcCoe Idealize.ShloMosaic.StableHlo
open Idealize.SL.Sem Cert.Gcn

/-! ## Each product's output array is the dense product of its input arrays -/

section Products

variable (V : (c : Dev nD) → (b : Ref sig .tc) → Buf (Elt Ideal) ((c : Thread nD τ).loc b)) (c : Dev nD)

theorem product0 : (dat0 (F := Ideal) V c).arrAt 2 cfg0.N = prodH (F := Ideal) (V c main_arg0) (V c main_arg3) := by
  unfold prodH Host.dotGeneral
  exact eq_dotGeneral_of_entries _ _ _ rfl rfl (fun _ _ => rfl) (fun _ _ => rfl) (fun _ _ => rfl) (fun _ _ => rfl) _ _ _ (fun p q => Cert.KernelIdeal.RegionValue.region0_entry V c _ _ rfl rfl p q)

theorem product1 : (dat1 (F := Ideal) V c).arrAt 2 cfg1.N = prodH (F := Ideal) (V c main_v50) (V c main_arg5) := by
  unfold prodH Host.dotGeneral
  exact eq_dotGeneral_of_entries _ _ _ rfl rfl (fun _ _ => rfl) (fun _ _ => rfl) (fun _ _ => rfl) (fun _ _ => rfl) _ _ _ (fun p q => Cert.KernelIdeal.RegionValue.region1_entry V c _ _ rfl rfl p q)

theorem product2 : (dat2 (F := Ideal) V c).arrAt 2 cfg2.N = prodH (F := Ideal) (V c main_v68) (V c main_arg7) := by
  unfold prodH Host.dotGeneral
  exact eq_dotGeneral_of_entries _ _ _ rfl rfl (fun _ _ => rfl) (fun _ _ => rfl) (fun _ _ => rfl) (fun _ _ => rfl) _ _ _ (fun p q => Cert.KernelIdeal.RegionValue.region2_entry V c _ _ rfl rfl p q)

theorem product3 : (dat3 (F := Ideal) V c).arrAt 2 cfg3.N = prodO (F := Ideal) (V c main_v86) (V c main_arg9) := by
  unfold prodO Host.dotGeneral
  exact eq_dotGeneral_of_entries _ _ _ rfl rfl (fun _ _ => rfl) (fun _ _ => rfl) (fun _ _ => rfl) (fun _ _ => rfl) _ _ _ (fun p q => Cert.KernelIdeal.RegionValue.region3_entry V c _ _ rfl rfl p q)

end Products

/-! ## The walk -/

variable (m : (ℓ : Loc nD τ sig) → Buf (Elt Ideal) ℓ) (ρ : Dev nD → PrngReg) (c : Dev nD)

/-- The sources, the destinations and the normalisation at the first product's entry. -/
theorem src_at3 : W3 m ρ c (Proc.devRef .tc main_v5) = srcF (m ((c : Thread nD τ).loc main_arg1)) := KernelHost.pre_src (W0 m ρ c)
theorem dst_at3 : W3 m ρ c (Proc.devRef .tc main_v6) = dstF (m ((c : Thread nD τ).loc main_arg1)) := KernelHost.pre_dst (W0 m ρ c)
theorem norm_at3 : W3 m ρ c (Proc.devRef .tc main_v32) = norm (m ((c : Thread nD τ).loc main_arg1)) (m ((c : Thread nD τ).loc main_arg2)) := KernelHost.pre_norm (W0 m ρ c)

/-- The first product: x · W1. -/
theorem prod0 : W4 m ρ c (Proc.devRef .tc main_v33) = prodH (m ((c : Thread nD τ).loc main_arg0)) (m ((c : Thread nD τ).loc main_arg3)) := by
  refine (W4_arr m ρ c 2).trans ((product0 (V3 m ρ) c).trans ?_)
  rw [show V3 m ρ c main_arg0 = (m ((c : Thread nD τ).loc main_arg0)) from Cert.KernelIdeal.Keep.W3_main_arg0 m ρ c,
    show V3 m ρ c main_arg3 = (m ((c : Thread nD τ).loc main_arg3)) from Cert.KernelIdeal.Keep.W3_main_arg3 m ρ c]

/-- Layer 1's output. -/
theorem hidden1 : W6 m ρ c (Proc.devRef .tc main_v50) = (layer (prodH (m ((c : Thread nD τ).loc main_arg0)) (m ((c : Thread nD τ).loc main_arg3))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg4))) := by
  refine (KernelHost.host_layer1 (W4 m ρ c)).trans ?_
  rw [prod0, Cert.KernelIdeal.Keep.W4_main_v32, Cert.KernelIdeal.Keep.W4_main_v5, Cert.KernelIdeal.Keep.W4_main_v6,
    Cert.KernelIdeal.Keep.W4_main_arg4, norm_at3, src_at3, dst_at3]

/-- The second product. -/
theorem prod1 : W7 m ρ c (Proc.devRef .tc main_v51) = prodH (layer (prodH (m ((c : Thread nD τ).loc main_arg0)) (m ((c : Thread nD τ).loc main_arg3))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg4))) (m ((c : Thread nD τ).loc main_arg5)) := by
  refine (W7_arr m ρ c 2).trans ((product1 (V6 m ρ) c).trans ?_)
  rw [show V6 m ρ c main_v50 = _ from hidden1 m ρ c,
    show V6 m ρ c main_arg5 = (m ((c : Thread nD τ).loc main_arg5)) from Cert.KernelIdeal.Keep.W6_main_arg5 m ρ c]

/-- Layer 2's output. -/
theorem hidden2 : W9 m ρ c (Proc.devRef .tc main_v68) = (layer (prodH (layer (prodH (m ((c : Thread nD τ).loc main_arg0)) (m ((c : Thread nD τ).loc main_arg3))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg4))) (m ((c : Thread nD τ).loc main_arg5))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg6))) := by
  refine (KernelHost.host_layer2 (W7 m ρ c)).trans ?_
  rw [prod1, Cert.KernelIdeal.Keep.W7_main_v32, Cert.KernelIdeal.Keep.W7_main_v5, Cert.KernelIdeal.Keep.W7_main_v6,
    Cert.KernelIdeal.Keep.W7_main_arg6, norm_at3, src_at3, dst_at3]

/-- The third product. -/
theorem prod2 : W10 m ρ c (Proc.devRef .tc main_v69) = prodH (layer (prodH (layer (prodH (m ((c : Thread nD τ).loc main_arg0)) (m ((c : Thread nD τ).loc main_arg3))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg4))) (m ((c : Thread nD τ).loc main_arg5))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg6))) (m ((c : Thread nD τ).loc main_arg7)) := by
  refine (W10_arr m ρ c 2).trans ((product2 (V9 m ρ) c).trans ?_)
  rw [show V9 m ρ c main_v68 = _ from hidden2 m ρ c,
    show V9 m ρ c main_arg7 = (m ((c : Thread nD τ).loc main_arg7)) from Cert.KernelIdeal.Keep.W9_main_arg7 m ρ c]

/-- Layer 3's output. -/
theorem hidden3 : W12 m ρ c (Proc.devRef .tc main_v86) = (layer (prodH (layer (prodH (layer (prodH (m ((c : Thread nD τ).loc main_arg0)) (m ((c : Thread nD τ).loc main_arg3))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg4))) (m ((c : Thread nD τ).loc main_arg5))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg6))) (m ((c : Thread nD τ).loc main_arg7))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg8))) := by
  refine (KernelHost.host_layer3 (W10 m ρ c)).trans ?_
  rw [prod2, Cert.KernelIdeal.Keep.W10_main_v32, Cert.KernelIdeal.Keep.W10_main_v5, Cert.KernelIdeal.Keep.W10_main_v6,
    Cert.KernelIdeal.Keep.W10_main_arg8, norm_at3, src_at3, dst_at3]

/-- The classifier's product. -/
theorem prod3 : W13 m ρ c (Proc.devRef .tc main_v87) = prodO (layer (prodH (layer (prodH (layer (prodH (m ((c : Thread nD τ).loc main_arg0)) (m ((c : Thread nD τ).loc main_arg3))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg4))) (m ((c : Thread nD τ).loc main_arg5))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg6))) (m ((c : Thread nD τ).loc main_arg7))) (norm (m ((c : Thread nD τ).loc main_arg1)) (m ((c : Thread nD τ).loc main_arg2))) (srcF (m ((c : Thread nD τ).loc main_arg1))) (dstF (m ((c : Thread nD τ).loc main_arg1))) (m ((c : Thread nD τ).loc main_arg8))) (m ((c : Thread nD τ).loc main_arg9)) := by
  refine (W13_arr m ρ c 2).trans ((product3 (V12 m ρ) c).trans ?_)
  rw [show V12 m ρ c main_v86 = _ from hidden3 m ρ c,
    show V12 m ρ c main_arg9 = (m ((c : Thread nD τ).loc main_arg9)) from Cert.KernelIdeal.Keep.W12_main_arg9 m ρ c]

/-- The result buffer ends at the network function of the arguments. -/
theorem result : W15 m ρ c (Proc.devRef .tc main_v91)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (KernelHost.host_tail (W13 m ρ c)).trans ?_
  rw [prod3, Cert.KernelIdeal.Keep.W13_main_arg10]
  rfl

end Cert.Gcn.Walk

end
-- ==== Proof.RefValue.lean ====
/-
  The reference program computes the network function.

  The reference's result term — the composition of its 212 host operations over the launch contents of its eleven
  arguments — is `gcn` of those contents: its three copies of the edge lists and of the normalisation are one
  composition of the same operations on the same two arguments, each layer's operations are `layer` of the dense product
  before them, and the outlined log-softmax after the output bias is `tail`.
-/
import proofs.«144225_j352187318590_1_alg».proof.Proof.RefRun
import proofs.«144225_j352187318590_1_alg».proof.Proof.Spec

set_option maxRecDepth 16384

noncomputable section

namespace Cert.Gcn

open Cert.ReferenceIdeal Idealize.ShloMosaic Idealize.ShloMosaic.TcCoe Idealize.SL.Sem

variable {F : FTy → Type} [FloatOps F]

theorem ref_result (m : (ℓ : Loc nD τ sig) → Buf (Elt F) ℓ) (c : Dev nD) :
    Cert.ReferenceIdeal.ValueP.res_main_v149 (F := F) m c
      = gcn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v149
  rfl

end Cert.Gcn

end
-- ==== Proof.lean ====
/-
  A three-layer graph convolution network whose four dense products run as tiled accelerator kernels, against the
  same network written with plain array operations.

  Both programs compute one function `gcn` of the eleven argument arrays over the extended reals.  The host operations
  around the products are the same in both (the reference only recomputes the edge normalisation in every layer, to the
  same value).  Each tiled product cuts the 50000 rows into 25 blocks of 2000, multiplies a block by the whole weight
  matrix into a zero accumulator and stores it; at the exact instance the change of float format before the product is
  the identity and an entry of the block is the plain sum over the 128 contracted positions, which is the entry of the
  reference's dot_general.  No finiteness of the inputs is used: only sums and products are regrouped, never
  distributed or cancelled.  The idealization rewrote nothing, so `preserves` is trivial, and the three frame conjuncts
  are the three runs with their results forgotten.
-/
import proofs.«144225_j352187318590_1_alg».proof.Defs
import proofs.«144225_j352187318590_1_alg».proof.Proof.Gen.Kernel
import proofs.«144225_j352187318590_1_alg».proof.Proof.Gen.KernelIdeal
import proofs.«144225_j352187318590_1_alg».proof.Proof.Gen.ReferenceIdeal
import proofs.«144225_j352187318590_1_alg».proof.Proof.Gen.Pre_finite_inputs
import proofs.«144225_j352187318590_1_alg».proof.Proof.Assembly
import proofs.«144225_j352187318590_1_alg».proof.Proof.Walk
import proofs.«144225_j352187318590_1_alg».proof.Proof.RefValue

noncomputable section

namespace Cert.Proof

open Idealize.ShloMosaic

theorem claim : Cert.Claim :=
  ⟨Cert.Kernel.Gen.facts, Cert.KernelIdeal.Gen.facts, Cert.ReferenceIdeal.Gen.facts, Cert.Pre_finite_inputs.Gen.facts,
    Assembly.frame_Kernel, Assembly.frame_KernelIdeal, Assembly.frame_ReferenceIdeal, Assembly.preserves,
    Assembly.algebraic_of (fun m ρ c => Cert.Gcn.Walk.result m ρ c) (fun m' c => Cert.Gcn.ref_result (F := Ideal) m' c)⟩

end Cert.Proof

end
